-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8448 : Shape := ⟨2, ![8192, 8448]⟩
abbrev S4x8448 : Shape := ⟨2, ![4, 8448]⟩
abbrev S8448x4 : Shape := ⟨2, ![8448, 4]⟩
abbrev S8448 : Shape := ⟨1, ![8448]⟩
abbrev S_ : Shape := ⟨0, ![]⟩

class Facts : Prop where
  bcast_S_S8192x8448 : S_.BroadcastsInDim S8192x8448 (![] : Fin 0 → Fin S8192x8448.rank)
  reducesTo_S8192x8448_S_d0_1 : S8192x8448.ReducesTo [0, 1] S_
  h_S_ : 0 < S_.numel
  bcast_S_S4x8448 : S_.BroadcastsInDim S4x8448 (![] : Fin 0 → Fin S4x8448.rank)
  reducesTo_S4x8448_S_d0_1 : S4x8448.ReducesTo [0, 1] S_
  bcast_S_S8448x4 : S_.BroadcastsInDim S8448x4 (![] : Fin 0 → Fin S8448x4.rank)
  reducesTo_S8448x4_S_d0_1 : S8448x4.ReducesTo [0, 1] S_
  bcast_S_S8448 : S_.BroadcastsInDim S8448 (![] : Fin 0 → Fin S8448.rank)
  reducesTo_S8448_S_d0 : S8448.ReducesTo [0] S_

variable [Facts]

def fn_part1 {F : FTy → Type} [FloatOps F] (main_v13 : IVec S_ 1) (main_v16 : IVec S8448 1) : IVec S_ 1 :=
  let main_c_5 : IVec S_ 1 := constantI S_ 1 1#1
  let main_v17 : IVec S_ 1 := (fun x v => Host.reduce IntOp.andi x v reducesTo_S8448_S_d0 h_S_) main_v16 main_c_5
  let main_v18 : IVec S_ 1 := andi main_v13 main_v17
  main_v18

def fn {F : FTy → Type} [FloatOps F] (main_arg0 : FVec F S8192x8448 .f32) (main_arg1 : FVec F S4x8448 .f32) (main_arg2 : FVec F S8448x4 .f32) (main_arg3 : FVec F S8448 .f32) : IVec S_ 1 :=
  let main_v0 : FVec F S8192x8448 .f32 := Host.absf main_arg0
  let main_cst : FVec F S_ .f32 := constant S_ .f32 0x7F800000#32
  let main_v1 : FVec F S8192x8448 .f32 := broadcastInDim S8192x8448 ![] bcast_S_S8192x8448 main_cst
  let main_v2 : IVec S8192x8448 1 := cmpf .olt main_v0 main_v1
  let main_c : IVec S_ 1 := constantI S_ 1 1#1
  let main_v3 : IVec S_ 1 := (fun x v => Host.reduce IntOp.andi x v reducesTo_S8192x8448_S_d0_1 h_S_) main_v2 main_c
  let main_v4 : FVec F S4x8448 .f32 := Host.absf main_arg1
  let main_cst_0 : FVec F S_ .f32 := constant S_ .f32 0x7F800000#32
  let main_v5 : FVec F S4x8448 .f32 := broadcastInDim S4x8448 ![] bcast_S_S4x8448 main_cst_0
  let main_v6 : IVec S4x8448 1 := cmpf .olt main_v4 main_v5
  let main_c_1 : IVec S_ 1 := constantI S_ 1 1#1
  let main_v7 : IVec S_ 1 := (fun x v => Host.reduce IntOp.andi x v reducesTo_S4x8448_S_d0_1 h_S_) main_v6 main_c_1
  let main_v8 : IVec S_ 1 := andi main_v3 main_v7
  let main_v9 : FVec F S8448x4 .f32 := Host.absf main_arg2
  let main_cst_2 : FVec F S_ .f32 := constant S_ .f32 0x7F800000#32
  let main_v10 : FVec F S8448x4 .f32 := broadcastInDim S8448x4 ![] bcast_S_S8448x4 main_cst_2
  let main_v11 : IVec S8448x4 1 := cmpf .olt main_v9 main_v10
  let main_c_3 : IVec S_ 1 := constantI S_ 1 1#1
  let main_v12 : IVec S_ 1 := (fun x v => Host.reduce IntOp.andi x v reducesTo_S8448x4_S_d0_1 h_S_) main_v11 main_c_3
  let main_v13 : IVec S_ 1 := andi main_v8 main_v12
  let main_v14 : FVec F S8448 .f32 := Host.absf main_arg3
  let main_cst_4 : FVec F S_ .f32 := constant S_ .f32 0x7F800000#32
  let main_v15 : FVec F S8448 .f32 := broadcastInDim S8448 ![] bcast_S_S8448 main_cst_4
  let main_v16 : IVec S8448 1 := cmpf .olt main_v14 main_v15
  fn_part1 (F := F) main_v13 main_v16
-- ==== Kernel.lean ====
abbrev S8192x8448 : Shape := ⟨2, ![8192, 8448]⟩
abbrev S4x8448 : Shape := ⟨2, ![4, 8448]⟩
abbrev S8448x4 : Shape := ⟨2, ![8448, 4]⟩
abbrev S8448 : Shape := ⟨1, ![8448]⟩
abbrev S1x8448 : Shape := ⟨2, ![1, 8448]⟩
abbrev S8192x8192 : Shape := ⟨2, ![8192, 8192]⟩
abbrev S8192x128 : Shape := ⟨2, ![8192, 128]⟩
abbrev S128x8448 : Shape := ⟨2, ![128, 8448]⟩
abbrev S8x8448 : Shape := ⟨2, ![8, 8448]⟩
abbrev S128x8192 : Shape := ⟨2, ![128, 8192]⟩
abbrev S128x128 : Shape := ⟨2, ![128, 128]⟩
abbrev S12x8448 : Shape := ⟨2, ![12, 8448]⟩
abbrev S120x8448 : Shape := ⟨2, ![120, 8448]⟩

abbrev nBuf : Space → Nat
  | .hbm => 10
  | .vmem => 13
  | .smem => 0
  | _ => 0

abbrev bufTy : (tb : Table) → Fin (tcTables nBuf tb) → BufTy
  | .hbm, ⟨0, _⟩ => ⟨S8192x8448, .f32⟩
  | .hbm, ⟨1, _⟩ => ⟨S4x8448, .f32⟩
  | .hbm, ⟨2, _⟩ => ⟨S8448x4, .f32⟩
  | .hbm, ⟨3, _⟩ => ⟨S8448, .f32⟩
  | .hbm, ⟨4, _⟩ => ⟨S4x8448, .f32⟩
  | .hbm, ⟨5, _⟩ => ⟨S1x8448, .f32⟩
  | .hbm, ⟨6, _⟩ => ⟨S8192x8192, .f32⟩
  | .hbm, ⟨7, _⟩ => ⟨S8192x128, .f32⟩
  | .hbm, ⟨8, _⟩ => ⟨S8192x128, .f32⟩
  | .hbm, ⟨9, _⟩ => ⟨S4x8448, .f32⟩
  | .local _ .vmem, ⟨0, _⟩ => ⟨S128x8448, .f32⟩
  | .local _ .vmem, ⟨1, _⟩ => ⟨S128x8448, .f32⟩
  | .local _ .vmem, ⟨2, _⟩ => ⟨S8x8448, .f32⟩
  | .local _ .vmem, ⟨3, _⟩ => ⟨S8x8448, .f32⟩
  | .local _ .vmem, ⟨4, _⟩ => ⟨S4x8448, .f32⟩
  | .local _ .vmem, ⟨5, _⟩ => ⟨S4x8448, .f32⟩
  | .local _ .vmem, ⟨6, _⟩ => ⟨S1x8448, .f32⟩
  | .local _ .vmem, ⟨7, _⟩ => ⟨S128x8192, .f32⟩
  | .local _ .vmem, ⟨8, _⟩ => ⟨S128x8192, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | _, _ => ⟨S8192x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x8448 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x8448 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8448 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S8448x4_S4x8448_1_0 : S8448x4.Transposes [1, 0] S4x8448
  bcast_S8448_S1x8448_1 : S8448.BroadcastsInDim S1x8448 (![1] : Fin 1 → Fin S1x8448.rank)
  inb_S128x8448_S128x8448_0_0 : ∀ a, (![0, 0] : Fin 2 → Nat) a + S128x8448.size a ≤ S128x8448.size a
  h_S128x8448 : 0 < S128x8448.numel
  inb_S8x8448_S8x8448_0_0 : ∀ a, (![0, 0] : Fin 2 → Nat) a + S8x8448.size a ≤ S8x8448.size a
  h_S8x8448 : 0 < S8x8448.numel
  slices_S8x8448_o4_0_S4x8448 : S8x8448.Slices ![4, 0] S4x8448
  inb_S4x8448_S4x8448_0_0 : ∀ a, (![0, 0] : Fin 2 → Nat) a + S4x8448.size a ≤ S4x8448.size a
  h_S4x8448 : 0 < S4x8448.numel
  inb_S1x8448_S1x8448_0_0 : ∀ a, (![0, 0] : Fin 2 → Nat) a + S1x8448.size a ≤ S1x8448.size a
  h_S1x8448 : 0 < S1x8448.numel
  shapeCasts_S1x8448_S1x8448 : S1x8448.ShapeCasts S1x8448
  broadcasts_S1x8448_S128x8448 : S1x8448.Broadcasts S128x8448
  inb_S4x8448_S1x8448_0_0 : ∀ a, (![0, 0] : Fin 2 → Nat) a + S1x8448.size a ≤ S4x8448.size a
  shapeCasts_S1x8448_S8448 : S1x8448.ShapeCasts S8448
  rotates_S128x8448_d0 : S128x8448.Rotates 0 none
  shapeCasts_S8448_S1x8448 : S8448.ShapeCasts S1x8448
  inb_S4x8448_S1x8448_1_0 : ∀ a, (![1, 0] : Fin 2 → Nat) a + S1x8448.size a ≤ S4x8448.size a
  inb_S4x8448_S1x8448_2_0 : ∀ a, (![2, 0] : Fin 2 → Nat) a + S1x8448.size a ≤ S4x8448.size a
  inb_S4x8448_S1x8448_3_0 : ∀ a, (![3, 0] : Fin 2 → Nat) a + S1x8448.size a ≤ S4x8448.size a
  slices_S128x8448_o0_0_S8x8448 : S128x8448.Slices ![0, 0] S8x8448
  concatenates_S4x8448_S8x8448_S12x8448_d0 : Shape.Concatenates [S4x8448, S8x8448] S12x8448 0
  broadcasts_S1x8448_S8x8448 : S1x8448.Broadcasts S8x8448
  slices_S12x8448_o0_0_S8x8448 : S12x8448.Slices ![0, 0] S8x8448
  slices_S12x8448_o1_0_S8x8448 : S12x8448.Slices ![1, 0] S8x8448
  slices_S12x8448_o2_0_S8x8448 : S12x8448.Slices ![2, 0] S8x8448
  slices_S12x8448_o3_0_S8x8448 : S12x8448.Slices ![3, 0] S8x8448
  slices_S128x8448_o8_0_S120x8448 : S128x8448.Slices ![8, 0] S120x8448
  concatenates_S8x8448_S120x8448_S128x8448_d0 : Shape.Concatenates [S8x8448, S120x8448] S128x8448 0
  slices_S128x8448_o0_0_S128x8192 : S128x8448.Slices ![0, 0] S128x8192
  inb_S128x8192_S128x8192_0_0 : ∀ a, (![0, 0] : Fin 2 → Nat) a + S128x8192.size a ≤ S128x8192.size a
  h_S128x8192 : 0 < S128x8192.numel
  slices_S128x8448_o0_8192_S128x128 : S128x8448.Slices ![0, 8192] S128x128
  inb_S128x128_S128x128_0_0 : ∀ a, (![0, 0] : Fin 2 → Nat) a + S128x128.size a ≤ S128x128.size a
  h_S128x128 : 0 < S128x128.numel
  slices_S128x8448_o0_8320_S128x128 : S128x8448.Slices ![0, 8320] S128x128
  slices_S8192x8448_S4x8448_8188_0 : S8192x8448.Slices ![8188, 0] S4x8448
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8448.size a ≤ S8192x8448.size a
  hwx0_0 : ∀ i : grid0.Coords, EltTy.bits .f32 = 32 ∨ (Rect.block (s := S8192x8448) S128x8448.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8448.size a ≤ S8192x8448.size a
  hwx0_1 : ∀ i : grid0.Coords, EltTy.bits .f32 = 32 ∨ (Rect.block (s := S8192x8448) S8x8448.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x8448.size a ≤ S4x8448.size a
  hwx0_2 : ∀ i : grid0.Coords, EltTy.bits .f32 = 32 ∨ (Rect.block (s := S4x8448) S4x8448.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x8448.size a ≤ S4x8448.size a
  hwx0_3 : ∀ i : grid0.Coords, EltTy.bits .f32 = 32 ∨ (Rect.block (s := S4x8448) S4x8448.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8448.size a ≤ S1x8448.size a
  hwx0_4 : ∀ i : grid0.Coords, EltTy.bits .f32 = 32 ∨ (Rect.block (s := S1x8448) S1x8448.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x8192.size a ≤ S8192x8192.size a
  hwx0_5 : ∀ i : grid0.Coords, EltTy.bits .f32 = 32 ∨ (Rect.block (s := S8192x8192) S128x8192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S8192x128.size a
  hwx0_6 : ∀ i : grid0.Coords, EltTy.bits .f32 = 32 ∨ (Rect.block (s := S8192x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S8192x128.size a
  hwx0_7 : ∀ i : grid0.Coords, EltTy.bits .f32 = 32 ∨ (Rect.block (s := S8192x128) S128x128.size (cc0_transform_7 i) (hinb0_7 i)).WholeWords (EltTy.packing .f32)

variable [Facts₀]

abbrev win0_0 : Pipeline.Window sig grid0 :=
  Pipeline.Window.ofSpec (Memref.whole main_arg0) S128x8448.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x8448.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4x8448.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x8448.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x8448.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S128x8192.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S128x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x8448 : Shape := ⟨2, ![8192, 8448]⟩
abbrev S4x8448 : Shape := ⟨2, ![4, 8448]⟩
abbrev S8448x4 : Shape := ⟨2, ![8448, 4]⟩
abbrev S8448 : Shape := ⟨1, ![8448]⟩
abbrev S8196x8448 : Shape := ⟨2, ![8196, 8448]⟩
abbrev S8448x1 : Shape := ⟨2, ![8448, 1]⟩
abbrev S1x8448 : Shape := ⟨2, ![1, 8448]⟩
abbrev S8192x8192 : Shape := ⟨2, ![8192, 8192]⟩
abbrev S8192x128 : Shape := ⟨2, ![8192, 128]⟩

abbrev nBuf : Space → Nat
  | .hbm => 39
  | .vmem => 0
  | .smem => 0
  | _ => 0

abbrev bufTy : (tb : Table) → Fin (tcTables nBuf tb) → BufTy
  | .hbm, ⟨0, _⟩ => ⟨S8192x8448, .f32⟩
  | .hbm, ⟨1, _⟩ => ⟨S4x8448, .f32⟩
  | .hbm, ⟨2, _⟩ => ⟨S8448x4, .f32⟩
  | .hbm, ⟨3, _⟩ => ⟨S8448, .f32⟩
  | .hbm, ⟨4, _⟩ => ⟨S8196x8448, .f32⟩
  | .hbm, ⟨5, _⟩ => ⟨S8192x8448, .f32⟩
  | .hbm, ⟨6, _⟩ => ⟨S8448x1, .f32⟩
  | .hbm, ⟨7, _⟩ => ⟨S8448, .f32⟩
  | .hbm, ⟨8, _⟩ => ⟨S1x8448, .f32⟩
  | .hbm, ⟨9, _⟩ => ⟨S8192x8448, .f32⟩
  | .hbm, ⟨10, _⟩ => ⟨S8192x8448, .f32⟩
  | .hbm, ⟨11, _⟩ => ⟨S1x8448, .f32⟩
  | .hbm, ⟨12, _⟩ => ⟨S8192x8448, .f32⟩
  | .hbm, ⟨13, _⟩ => ⟨S8192x8448, .f32⟩
  | .hbm, ⟨14, _⟩ => ⟨S8192x8448, .f32⟩
  | .hbm, ⟨15, _⟩ => ⟨S8448x1, .f32⟩
  | .hbm, ⟨16, _⟩ => ⟨S8448, .f32⟩
  | .hbm, ⟨17, _⟩ => ⟨S1x8448, .f32⟩
  | .hbm, ⟨18, _⟩ => ⟨S8192x8448, .f32⟩
  | .hbm, ⟨19, _⟩ => ⟨S8192x8448, .f32⟩
  | .hbm, ⟨20, _⟩ => ⟨S8192x8448, .f32⟩
  | .hbm, ⟨21, _⟩ => ⟨S8192x8448, .f32⟩
  | .hbm, ⟨22, _⟩ => ⟨S8448x1, .f32⟩
  | .hbm, ⟨23, _⟩ => ⟨S8448, .f32⟩
  | .hbm, ⟨24, _⟩ => ⟨S1x8448, .f32⟩
  | .hbm, ⟨25, _⟩ => ⟨S8192x8448, .f32⟩
  | .hbm, ⟨26, _⟩ => ⟨S8192x8448, .f32⟩
  | .hbm, ⟨27, _⟩ => ⟨S8192x8448, .f32⟩
  | .hbm, ⟨28, _⟩ => ⟨S8192x8448, .f32⟩
  | .hbm, ⟨29, _⟩ => ⟨S8448x1, .f32⟩
  | .hbm, ⟨30, _⟩ => ⟨S8448, .f32⟩
  | .hbm, ⟨31, _⟩ => ⟨S1x8448, .f32⟩
  | .hbm, ⟨32, _⟩ => ⟨S8192x8448, .f32⟩
  | .hbm, ⟨33, _⟩ => ⟨S8192x8448, .f32⟩
  | .hbm, ⟨34, _⟩ => ⟨S8192x8448, .f32⟩
  | .hbm, ⟨35, _⟩ => ⟨S4x8448, .f32⟩
  | .hbm, ⟨36, _⟩ => ⟨S8192x8192, .f32⟩
  | .hbm, ⟨37, _⟩ => ⟨S8192x128, .f32⟩
  | .hbm, ⟨38, _⟩ => ⟨S8192x128, .f32⟩
  | _, _ => ⟨S8192x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩

abbrev nD : Nat := 1
abbrev τ : Topo := Topo.v7x

variable {F : FTy → Type} [FloatOps F]

class Facts₀ : Prop where
  concatenates_S4x8448_S8192x8448_S8196x8448_d0 : Shape.Concatenates [S4x8448, S8192x8448] S8196x8448 0
  slices_S8196x8448_S8192x8448_0_0 : S8196x8448.Slices ![0, 0] S8192x8448
  slices_S8448x4_S8448x1_0_0 : S8448x4.Slices ![0, 0] S8448x1
  shapeCasts_S8448x1_S8448 : S8448x1.ShapeCasts S8448
  bcast_S8448_S1x8448_1 : S8448.BroadcastsInDim S1x8448 (![1] : Fin 1 → Fin S1x8448.rank)
  bcast_S1x8448_S8192x8448_0_1 : S1x8448.BroadcastsInDim S8192x8448 (![0, 1] : Fin 2 → Fin S8192x8448.rank)
  slices_S8196x8448_S8192x8448_1_0 : S8196x8448.Slices ![1, 0] S8192x8448
  slices_S8448x4_S8448x1_0_1 : S8448x4.Slices ![0, 1] S8448x1
  slices_S8196x8448_S8192x8448_2_0 : S8196x8448.Slices ![2, 0] S8192x8448
  slices_S8448x4_S8448x1_0_2 : S8448x4.Slices ![0, 2] S8448x1
  slices_S8196x8448_S8192x8448_3_0 : S8196x8448.Slices ![3, 0] S8192x8448
  slices_S8448x4_S8448x1_0_3 : S8448x4.Slices ![0, 3] S8448x1
  slices_S8196x8448_S4x8448_8192_0 : S8196x8448.Slices ![8192, 0] S4x8448
  slices_S8192x8448_S8192x8192_0_0 : S8192x8448.Slices ![0, 0] S8192x8192
  slices_S8192x8448_S8192x128_0_8192 : S8192x8448.Slices ![0, 8192] S8192x128
  slices_S8192x8448_S8192x128_0_8320 : S8192x8448.Slices ![0, 8320] S8192x128

variable [Facts₀]

class Facts : Prop extends Facts₀ where

variable [Facts]
-- ==== Proof.Bits.Tile.lean ====
/-
  One tile of the causal convolution, as a program on its staging buffers.

  At a grid point the body is handed five input buffers — a tile of 128 rows of the sequence, the 8 rows
  that precede the tile (for the first tile: the first 8 rows, unused), the 4 rows of initial state, the 4 tap
  weights laid out one row per tap, the bias as one row — and three output buffers, the tile's result cut along
  the channels into widths 8192, 128 and 128. It loads the inputs whole (the weights a row at a time),
  computes, and stores each output buffer whole. This module states what each output buffer holds afterwards
  as a function of the five inputs' contents ('tileOut5', 'tileOut6', 'tileOut7': the one store of each, over the
  body's arithmetic named by the generated skeleton), and proves the body's triple: run on whole buffers
  holding the inputs and anything in the outputs, it terminates with the inputs unchanged and the outputs at
  those functions. Nothing here depends on the float instance.
-/
import proofs.«162170_j60765197304309_2_alg».proof.Proof.Gen.Kernel.Launch
import proofs.«162170_j60765197304309_2_alg».proof.Proof.Gen.Kernel.Skeleton
import proofs.«162170_j60765197304309_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- The whole of a 128-row tile, of the 8 preceding rows, of the state, of the bias row. -/
abbrev rTile : Rect S128x8448 := Rect.unit (s := S128x8448) ![0, 0] S128x8448.size inb_S128x8448_S128x8448_0_0
abbrev rPrev : Rect S8x8448 := Rect.unit (s := S8x8448) ![0, 0] S8x8448.size inb_S8x8448_S8x8448_0_0
abbrev rState : Rect S4x8448 := Rect.unit (s := S4x8448) ![0, 0] S4x8448.size inb_S4x8448_S4x8448_0_0
abbrev rBias : Rect S1x8448 := Rect.unit (s := S1x8448) ![0, 0] S1x8448.size inb_S1x8448_S1x8448_0_0
/-- Row j of the tap weights. -/
abbrev rTap0 : Rect S4x8448 := Rect.unit (s := S4x8448) ![0, 0] S1x8448.size inb_S4x8448_S1x8448_0_0
abbrev rTap1 : Rect S4x8448 := Rect.unit (s := S4x8448) ![1, 0] S1x8448.size inb_S4x8448_S1x8448_1_0
abbrev rTap2 : Rect S4x8448 := Rect.unit (s := S4x8448) ![2, 0] S1x8448.size inb_S4x8448_S1x8448_2_0
abbrev rTap3 : Rect S4x8448 := Rect.unit (s := S4x8448) ![3, 0] S1x8448.size inb_S4x8448_S1x8448_3_0
/-- The whole of each output buffer. -/
abbrev rWide : Rect S128x8192 := Rect.unit (s := S128x8192) ![0, 0] S128x8192.size inb_S128x8192_S128x8192_0_0
abbrev rNarrow : Rect S128x128 := Rect.unit (s := S128x128) ![0, 0] S128x128.size inb_S128x128_S128x128_0_0

/-! ## What the body leaves in each output buffer -/

section Outs

variable (i : grid0.Coords) (x0 : Vec F S128x8448 .f32) (x1 : Vec F S8x8448 .f32) (x2 : Vec F S4x8448 .f32)
  (x3 : Vec F S4x8448 .f32) (x4 : Vec F S1x8448 .f32)

/-- The rows that precede the tile's first row: the state at the first grid point, else the last four of the
    eight preceding rows. -/
abbrev carry : Vec F S4x8448 .f32 := k0_pay5 i (View.ld x1 rPrev) (View.ld x2 rState)
/-- The bias row as the body reshapes it. -/
abbrev biasRow : FVec F S1x8448 .f32 := k0_pay6 (View.ld x4 rBias)
/-- The tile's result by the four rotated taps (right for every row but the first few). -/
abbrev bulk : FVec F S128x8448 .f32 :=
  k0_pay7 (View.ld x0 rTile) (View.ld x4 rBias) (View.ld x3 rTap0) (View.ld x3 rTap1) (View.ld x3 rTap2) (View.ld x3 rTap3)

/-- The first output buffer after the body: its one store, of channels [0, 8192). -/
def tileOut5 : Vec F S128x8192 .f32 :=
  View.canon [⟨rWide, k0_pay2 (View.ld x0 rTile) (carry i x1 x2) (biasRow x4) (bulk x0 x3 x4)
    (View.ld x3 rTap0) (View.ld x3 rTap1) (View.ld x3 rTap2) (View.ld x3 rTap3)⟩]
/-- The second: channels [8192, 8320). -/
def tileOut6 : Vec F S128x128 .f32 :=
  View.canon [⟨rNarrow, k0_pay3 (View.ld x0 rTile) (carry i x1 x2) (biasRow x4) (bulk x0 x3 x4)
    (View.ld x3 rTap0) (View.ld x3 rTap1) (View.ld x3 rTap2) (View.ld x3 rTap3)⟩]
/-- The third: channels [8320, 8448). -/
def tileOut7 : Vec F S128x128 .f32 :=
  View.canon [⟨rNarrow, k0_pay4 (View.ld x0 rTile) (carry i x1 x2) (biasRow x4) (bulk x0 x3 x4)
    (View.ld x3 rTap0) (View.ld x3 rTap1) (View.ld x3 rTap2) (View.ld x3 rTap3)⟩]

end Outs

/-- A store through the whole of a buffer covers it. -/
theorem coverWide (p0 : Vec F S128x8192 .f32) (y : S128x8192.Idx) :
    ∃ pc ∈ ([⟨rWide, p0⟩] : List (View.Piece (Elt F) S128x8192 .f32)), y ∈ pc.1.set :=
  View.cover_of_tiled [⟨rWide, p0⟩] S128x8192.size (by rfl) y
theorem coverNarrow (p0 : Vec F S128x128 .f32) (y : S128x128.Idx) :
    ∃ pc ∈ ([⟨rNarrow, p0⟩] : List (View.Piece (Elt F) S128x128 .f32)), y ∈ pc.1.set :=
  View.cover_of_tiled [⟨rNarrow, p0⟩] S128x128.size (by rfl) y

/-! ## The body's triple -/

set_option maxHeartbeats 4000000 in
/-- The body on whole staging buffers, the inputs' at contents 'x0 … x4' and the outputs' at anything, runs to the
    continuation holding the inputs' as they were and each output's at its 'tileOut'. -/
theorem tile_triple (c : Dev nD) (E : Set ℕ) (i : grid0.Coords)
    (arg1 : Memref sig .tc .vmem S128x8448 .f32) (harg1 : arg1.IsWhole) (arg2 : Memref sig .tc .vmem S8x8448 .f32) (harg2 : arg2.IsWhole)
    (arg3 : Memref sig .tc .vmem S4x8448 .f32) (harg3 : arg3.IsWhole) (arg4 : Memref sig .tc .vmem S4x8448 .f32) (harg4 : arg4.IsWhole)
    (arg5 : Memref sig .tc .vmem S1x8448 .f32) (harg5 : arg5.IsWhole) (arg6 : Memref sig .tc .vmem S128x8192 .f32) (harg6 : arg6.IsWhole)
    (arg7 : Memref sig .tc .vmem S128x128 .f32) (harg7 : arg7.IsWhole) (arg8 : Memref sig .tc .vmem S128x128 .f32) (harg8 : arg8.IsWhole)
    (x0 : Vec F S128x8448 .f32) (x1 : Vec F S8x8448 .f32) (x2 : Vec F S4x8448 .f32) (x3 : Vec F S4x8448 .f32) (x4 : Vec F S1x8448 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (tileOut5 i x0 x1 x2 x3 x4) ∗ owns (c : Thread nD τ) arg7 fullShare (tileOut6 i x0 x1 x2 x3 x4)
            ∗ owns (c : Thread nD τ) arg8 fullShare (tileOut7 i x0 x1 x2 x3 x4)) -∗ K ⟨⟩))
      ⊢ wp frame (wpE (defs₀ (F := F)) Variants.none c none) E
          (cc0__cconv_kernel i arg1 harg1 arg2 harg2 arg3 harg3 arg4 harg4 arg5 harg5 arg6 harg6 arg7 harg7 arg8 harg8) K := by
  simp only [cc0__cconv_kernel_eq_skeleton]; unfold cc0__cconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverWide _)
  isplitl [H6]
  · iexists _; isplitr
    swap; · iexact H6
    ipureintro
    exact View.read_writes_eq_canon _ _ _ (coverNarrow _)
  iexists _; isplitr
  swap; · iexact H7
  ipureintro
  exact View.read_writes_eq_canon _ _ _ (coverNarrow _)

/-! ## The proof data of the pipeline -/

section Data

/- The contents of the core's buffers when the region is entered. -/
variable (V : (c : Dev nD) → (b : Ref sig .tc) → Buf (Elt F) ((c : Thread nD τ).loc b))

/-- Window 'w''s block at grid point 't', read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data on core 'c'. The arrays are as the region finds them. After the body at point 't' every input's
    buffer still holds its block and each output's holds the tile's result for its channels. The sequence array is
    read through two windows (the tile and the rows before it), so each holds half of it; every other input is
    held whole. Nothing is owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => tileOut5 (grid0.coords t) (iblk V c 0 t) (iblk V c 1 t) (iblk V c 2 t) (iblk V c 3 t) (iblk V c 4 t)
    | ⟨6, _⟩ => tileOut6 (grid0.coords t) (iblk V c 0 t) (iblk V c 1 t) (iblk V c 2 t) (iblk V c 3 t) (iblk V c 4 t)
    | ⟨7, _⟩ => tileOut7 (grid0.coords t) (iblk V c 0 t) (iblk V c 1 t) (iblk V c 2 t) (iblk V c 3 t) (iblk V c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t
    = tileOut5 (grid0.coords t) (iblk V c 0 t) (iblk V c 1 t) (iblk V c 2 t) (iblk V c 3 t) (iblk V c 4 t) := by dsimp only [dat]
theorem after_6 (c : Dev nD) (t : Fin cfg0.N) : (dat V c).after 6 t
    = tileOut6 (grid0.coords t) (iblk V c 0 t) (iblk V c 1 t) (iblk V c 2 t) (iblk V c 3 t) (iblk V c 4 t) := by dsimp only [dat]
theorem after_7 (c : Dev nD) (t : Fin cfg0.N) : (dat V c).after 7 t
    = tileOut7 (grid0.coords t) (iblk V c 0 t) (iblk V c 1 t) (iblk V c 2 t) (iblk V c 3 t) (iblk V c 4 t) := by dsimp only [dat]

/-- Every input's current staging buffer holds its block at every point, fetched there or not: an input that is not
    fetched again has not moved. -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)

/-! ## The body obligation -/

/-- What the body is called with at point 't', the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the inputs' buffers hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (tile_triple c Set.univ (grid0.coords t) _ _ _ _ _ _ _ _ _ _ _ _ _ _ _ _
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation (c : Dev nD) : BodyObligation (dat (F := F) V c) (defs₀ (F := F)) Variants.none () Set.univ := fun t => by
  rw [bigSep_W0, bigSep_W0]
  exact sound_body V c t

end Data

end Cert.Kernel.Tile

end
-- ==== Proof.Bits.Whole.lean ====
/-
  The whole program around the tiles: the host lines before the region (the tap weights transposed, the bias laid
  as a row), the region over the 64 tiles, the host line after it (the last four rows of the sequence cut out).
-/
import proofs.«162170_j60765197304309_2_alg».proof.Proof.Bits.Tile
import Idealize.ShloMosaic.Lib.Pipeline.RegionsLoop
import Idealize.ShloMosaic.Lib.Pipeline.FrameSuffix

set_option maxRecDepth 16384

noncomputable section

namespace Cert.Kernel.Whole

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays behind the windows: seven buffers for eight windows -/

/-- The distinct buffers behind the eight windows' arrays, one by one: the sequence (read by two windows), the
    state, the transposed weights, the bias row and the three results. -/
theorem arrBufs_list (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_v1) ↦{fullShare} V main_v1)
          ∗ (((c : Thread nD τ).loc main_v2_0) ↦{fullShare} V main_v2_0) ∗ (((c : Thread nD τ).loc main_v2_1) ↦{fullShare} V main_v2_1)
          ∗ (((c : Thread nD τ).loc main_v2_2) ↦{fullShare} V main_v2_2)) := by
  unfold Pipeline.arrBufs
  exact bigSep_eq_bigSepL_of_eq [main_arg0, main_arg1, main_v0, main_v1, main_v2_0, main_v2_1, main_v2_2] (by decide) (by decide) _

variable (V : (c : Dev nD) → (b : Ref sig .tc) → Buf (Elt F) ((c : Thread nD τ).loc b))

/-- The windows' arrays as the proof data holds them, one by one: each a whole buffer, the sequence's two windows at
    the two halves of its share. -/
theorem arrays_list (c : Dev nD) (A : (w : Fin cfg0.W) → Buf (Elt F) ((cfg0.win w).arr.view.loc (c : Thread nD τ))) :
    ((dat V c).arrays A : sProp 𝕄)
      = iprop((((c : Thread nD τ).loc main_arg0) ↦{fullShare.left} A 0) ∗ (((c : Thread nD τ).loc main_arg0) ↦{fullShare.right} A 1)
          ∗ (((c : Thread nD τ).loc main_arg1) ↦{fullShare} A 2) ∗ (((c : Thread nD τ).loc main_v0) ↦{fullShare} A 3)
          ∗ (((c : Thread nD τ).loc main_v1) ↦{fullShare} A 4) ∗ (((c : Thread nD τ).loc main_v2_0) ↦{fullShare} A 5)
          ∗ (((c : Thread nD τ).loc main_v2_1) ↦{fullShare} A 6) ∗ (((c : Thread nD τ).loc main_v2_2) ↦{fullShare} A 7)) := by
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ, (arr_whole0 7).set_eq_univ]
  rfl

/-- ENTRY: the seven buffers, whole, make the eight windows' arrays: the sequence's share is cut in two, one half
    for the window of tiles and one for the window of preceding rows. -/
theorem arrays_of_arrBufs (c : Dev nD) (W : (b : Ref sig .tc) → Buf (Elt F) ((c : Thread nD τ).loc b))
    (A : (w : Fin cfg0.W) → Buf (Elt F) ((cfg0.win w).arr.view.loc (c : Thread nD τ))) (hA : ∀ w, A w = W (Pipeline.arrRef spec0 w)) :
    (Pipeline.arrBufs (Ix := Unit) (Name := ℕ) (U := UR sig nD τ) (Lvl := ℕ) spec0 c W : sProp 𝕄) ⊢ (dat V c).arrays A := by
  rw [arrBufs_list, arrays_list, hA 0, hA 1, hA 2, hA 3, hA 4, hA 5, hA 6, hA 7]
  iintro ⟨H0, H1, H2, H3, H4, H5, H6⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  isplitl [H3]; · iexact H3
  isplitl [H4]; · iexact H4
  isplitl [H5]; · iexact H5
  iexact H6

/-- EXIT: the eight arrays give the seven buffers back whole, the two halves of the sequence's share joined (both
    windows hold it at the same contents: neither is ever written). -/
theorem arrBufs_of_arrays (c : Dev nD) (W : (b : Ref sig .tc) → Buf (Elt F) ((c : Thread nD τ).loc b))
    (A : (w : Fin cfg0.W) → Buf (Elt F) ((cfg0.win w).arr.view.loc (c : Thread nD τ))) (hA : ∀ w, A w = W (Pipeline.arrRef spec0 w)) :
    (dat V c).arrays A ⊢ (Pipeline.arrBufs (Ix := Unit) (Name := ℕ) (U := UR sig nD τ) (Lvl := ℕ) spec0 c W : sProp 𝕄) := by
  rw [arrBufs_list, arrays_list, hA 0, hA 1, hA 2, hA 3, hA 4, hA 5, hA 6, hA 7]
  iintro ⟨H0l, H0r, H1, H2, H3, H4, H5, H6⟩
  isplitl [H0l H0r]
  · iapply (pointsTo_share (PosShare.mem_left_op_right fullShare)).2
    isplitl [H0l]; · iexact H0l
    iexact H0r
  isplitl [H1]; · iexact H1
  isplitl [H2]; · iexact H2
  isplitl [H3]; · iexact H3
  isplitl [H4]; · iexact H4
  isplitl [H5]; · iexact H5
  iexact H6

/-- The core's unscoped buffers at 'W' are the seven buffers behind the windows and the three that bypass the region. -/
theorem unscopedBufs_cut (c : Dev nD) (W : (b : Ref sig .tc) → Buf (Elt F) ((c : Thread nD τ).loc b)) :
    (unscopedBufs c W : sProp 𝕄) = iprop((Pipeline.arrBufs (Ix := Unit) (Name := ℕ) (U := UR sig nD τ) (Lvl := ℕ) spec0 c W : sProp 𝕄)
      ∗ Pipeline.unscopedRest (Ix := Unit) (Name := ℕ) (U := UR sig nD τ) (Lvl := ℕ) spec0 c W) :=
  Pipeline.unscopedBufs_split₀ (Ix := Unit) (Name := ℕ) (U := UR sig nD τ) (Lvl := ℕ) (Val := Elt F) cfgs 0 winFacts₀0.arr_unscoped c W

/-! ## The buffers' contents at each boundary of @main -/

section Run

variable (m : (ℓ : Loc nD τ sig) → Buf (Elt F) ℓ) (ρ : Dev nD → PrngReg)

/-- Core 'c''s buffers at launch; -/
abbrev W0 : Dev nD → Valuation τ sig (Elt F) := fun c b => (s₀ m ρ).mem ((c : Dev nD), b)
/-- after the two host lines before the region (the weights transposed, the bias laid as a row); -/
abbrev W1 : Dev nD → Valuation τ sig (Elt F) := fun c => StableHlo.after hostOps0 (W0 m ρ c)
/-- the same read at the TensorCore's references: what the region's proof data take. -/
abbrev V1 : (c : Dev nD) → (b : Ref sig .tc) → Buf (Elt F) ((c : Thread nD τ).loc b) := fun c b => W1 m ρ c b

/-- The three results when the region is left: each output window's array after the write-backs of all 64 tiles. -/
abbrev res5 (c : Dev nD) : Buf (Elt F) ((c : Thread nD τ).loc main_v2_0) := (dat (V1 m ρ) c).arrAt 5 cfg0.N
abbrev res6 (c : Dev nD) : Buf (Elt F) ((c : Thread nD τ).loc main_v2_1) := (dat (V1 m ρ) c).arrAt 6 cfg0.N
abbrev res7 (c : Dev nD) : Buf (Elt F) ((c : Thread nD τ).loc main_v2_2) := (dat (V1 m ρ) c).arrAt 7 cfg0.N

/-- At the region's exit: the three results written, every other buffer as the region found it. -/
def W2 (c : Dev nD) : Valuation τ sig (Elt F) :=
  Function.update (Function.update (Function.update (W1 m ρ c) main_v2_0 (res5 m ρ c)) main_v2_1 (res6 m ρ c)) main_v2_2 (res7 m ρ c)
abbrev V2 : (c : Dev nD) → (b : Ref sig .tc) → Buf (Elt F) ((c : Thread nD τ).loc b) := fun c b => W2 m ρ c b
/-- After the host line that follows the region (the last four rows of the sequence cut out). -/
abbrev W3 : Dev nD → Valuation τ sig (Elt F) := fun c => StableHlo.after hostOps1 (W2 m ρ c)

theorem W2_res7 (c : Dev nD) : W2 m ρ c main_v2_2 = res7 m ρ c := by
  unfold W2; exact Function.update_self _ _ _
theorem W2_res6 (c : Dev nD) : W2 m ρ c main_v2_1 = res6 m ρ c := by
  unfold W2
  rw [Function.update_of_ne (StableHlo.devRef_ne_of_ne (by decide) : (Proc.devRef .tc main_v2_1 : DevRef τ sig) ≠ Proc.devRef .tc main_v2_2)]
  exact Function.update_self _ _ _
theorem W2_res5 (c : Dev nD) : W2 m ρ c main_v2_0 = res5 m ρ c := by
  unfold W2
  rw [Function.update_of_ne (StableHlo.devRef_ne_of_ne (by decide) : (Proc.devRef .tc main_v2_0 : DevRef τ sig) ≠ Proc.devRef .tc main_v2_2),
    Function.update_of_ne (StableHlo.devRef_ne_of_ne (by decide) : (Proc.devRef .tc main_v2_0 : DevRef τ sig) ≠ Proc.devRef .tc main_v2_1)]
  exact Function.update_self _ _ _
/-- The region changes no other buffer. -/
theorem W2_of_ne (c : Dev nD) (b : Ref sig .tc) (h0 : b ≠ main_v2_0) (h1 : b ≠ main_v2_1) (h2 : b ≠ main_v2_2) :
    W2 m ρ c b = W1 m ρ c b := by
  unfold W2
  rw [Function.update_of_ne (StableHlo.devRef_ne_of_ne h2), Function.update_of_ne (StableHlo.devRef_ne_of_ne h1),
    Function.update_of_ne (StableHlo.devRef_ne_of_ne h0)]

/-- At the exit each window's array holds what the pipeline leaves: an input what it held at entry, an output its
    write-backs. -/
theorem exit_arr (c : Dev nD) (w : Fin cfg0.W) : (dat (V1 m ρ) c).arrAt w cfg0.N = V2 m ρ c (Pipeline.arrRef spec0 w) :=
  match w with
  | ⟨0, _⟩ => (((dat (V1 m ρ) c).arrAt_in 0 rfl _).trans (A_eq (V1 m ρ) c 0)).trans (W2_of_ne m ρ c main_arg0 (by decide) (by decide) (by decide)).symm
  | ⟨1, _⟩ => (((dat (V1 m ρ) c).arrAt_in 1 rfl _).trans (A_eq (V1 m ρ) c 1)).trans (W2_of_ne m ρ c main_arg0 (by decide) (by decide) (by decide)).symm
  | ⟨2, _⟩ => (((dat (V1 m ρ) c).arrAt_in 2 rfl _).trans (A_eq (V1 m ρ) c 2)).trans (W2_of_ne m ρ c main_arg1 (by decide) (by decide) (by decide)).symm
  | ⟨3, _⟩ => (((dat (V1 m ρ) c).arrAt_in 3 rfl _).trans (A_eq (V1 m ρ) c 3)).trans (W2_of_ne m ρ c main_v0 (by decide) (by decide) (by decide)).symm
  | ⟨4, _⟩ => (((dat (V1 m ρ) c).arrAt_in 4 rfl _).trans (A_eq (V1 m ρ) c 4)).trans (W2_of_ne m ρ c main_v1 (by decide) (by decide) (by decide)).symm
  | ⟨5, _⟩ => (W2_res5 m ρ c).symm
  | ⟨6, _⟩ => (W2_res6 m ρ c).symm
  | ⟨7, _⟩ => (W2_res7 m ρ c).symm

/-- A buffer behind no window is as the region found it. -/
theorem exit_rest (c : Dev nD) (b : Ref sig .tc) (hb : b ∉ Finset.univ.image (Pipeline.arrRef spec0)) : V2 m ρ c b = V1 m ρ c b :=
  W2_of_ne m ρ c b (fun e => hb (Finset.mem_image.mpr ⟨5, Finset.mem_univ _, e.symm⟩))
    (fun e => hb (Finset.mem_image.mpr ⟨6, Finset.mem_univ _, e.symm⟩)) (fun e => hb (Finset.mem_image.mpr ⟨7, Finset.mem_univ _, e.symm⟩))

/-- ENTRY of the region: every unscoped buffer held at 'W1' is the windows' arrays at their entry contents and the
    three buffers that bypass the region. -/
theorem entry_split (c : Dev nD) :
    (StableHlo.held (c : Thread nD τ) (Pipeline.ucRefs τ sig) (W1 m ρ c) : sProp 𝕄)
      ⊢ iprop((dat (V1 m ρ) c).arrays ((dat (V1 m ρ) c).arrAt · 0)
          ∗ Pipeline.unscopedRest (Ix := Unit) (Name := ℕ) (U := UR sig nD τ) (Lvl := ℕ) spec0 c (V1 m ρ c)) := by
  rw [← Pipeline.unscopedBufs_held, unscopedBufs_cut]
  exact sep_mono (arrays_of_arrBufs (V1 m ρ) c _ _ fun w => A_eq (V1 m ρ) c w) .rfl

/-- EXIT: the arrays at their final contents and the bypassing buffers are every unscoped buffer held at 'W2'. -/
theorem exit_join (c : Dev nD) :
    iprop((dat (V1 m ρ) c).arrays ((dat (V1 m ρ) c).arrAt · cfg0.N)
        ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  rw [← Pipeline.unscopedBufs_held, unscopedBufs_cut]
  refine sep_mono (arrBufs_of_arrays (V1 m ρ) c _ _ (exit_arr m ρ c)) (Entails.of_eq ?_)
  unfold Pipeline.unscopedRest
  exact bigSep_congr fun b hb => congrArg (fun x : Buf (Elt F) ((c : Thread nD τ).loc b) => (((c : Thread nD τ).loc b) ↦{fullShare} x : sProp 𝕄))
    (exit_rest m ρ c b (Finset.mem_sdiff.mp hb).2).symm

end Run

/-! ## @main as segments, and the run -/

section Launch

variable (m : (ℓ : Loc nD τ sig) → Buf (Elt F) ℓ) (ρ : Dev nD → PrngReg)

/-- No prefetched table. -/
abbrev adm : (p : Fin 1) → (pcfgs (F := F) p).Adm := fun p => (cfgs p).toPCfg_adm
/-- The one pipeline's proof data, at the region's entry contents. -/
def pdats (_ : Fin 1) (c : Dev nD) : Dat τ (Elt F) Unit ℕ (UR sig nD τ) ℕ cfg0 c := dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A line of host operations as a segment over the unscoped buffers from the contents 'W'. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for what the core owes. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- THE REGION over the thread state: entered from every unscoped buffer at 'W1', left at 'W2'. Its arrays are cut out
    of the unscoped buffers, the sequence's share in two, and put back at the exit contents; the generator register
    goes into the invariant and comes out; nothing is owed; the kernel names no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (StableHlo.held (c : Thread nD τ) (Pipeline.ucRefs τ sig) (W1 m ρ c) : sProp 𝕄)
        ⊢ iprop((pdats m ρ 0 c).arrays ((pdats m ρ 0 c).arrAt · 0)
          ∗ Pipeline.unscopedRest (Ix := Unit) (Name := ℕ) (U := UR sig nD τ) (Lvl := ℕ) spec0 c (V1 m ρ c)) := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
          ∗ Pipeline.unscopedRest (Ix := Unit) (Name := ℕ) (U := UR sig nD τ) (Lvl := ℕ) spec0 c (V1 m ρ c))
        ⊢ (StableHlo.held (c : Thread nD τ) (Pipeline.ucRefs τ sig) (W2 m ρ c) : sProp 𝕄) := exit_join m ρ c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's items: the two host lines, the region, the host line after it. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state has every unscoped buffer at the last boundary's contents 'W3'. -/
theorem run_whole : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show (iprop(StableHlo.held (c : Thread nD τ) (Pipeline.ucRefs τ sig) (W3 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Launch

/-! ## What the last boundary holds -/

section Read

variable (m : (ℓ : Loc nD τ sig) → Buf (Elt F) ℓ) (ρ : Dev nD → PrngReg)

/-- The host lines before the region write only the transposed weights and the bias row; -/
theorem not_written0 (b : Ref sig .tc) (h0 : b ≠ main_v0) (h1 : b ≠ main_v1) :
    ∀ op ∈ (hostOps0 (F := F)), Proc.devRef .tc b ∉ op.writes := by
  intro op hop
  simp only [List.mem_cons, List.mem_nil_iff, or_false] at hop
  rcases hop with rfl | rfl <;> simp only [StableHlo.unary_writes, Finset.mem_singleton] <;> exact StableHlo.devRef_ne_of_ne ‹_›
/-- the line after it only the cut-out rows. -/
theorem not_written1 (b : Ref sig .tc) (h : b ≠ main_v3) :
    ∀ op ∈ (hostOps1 (F := F)), Proc.devRef .tc b ∉ op.writes := by
  intro op hop
  simp only [List.mem_cons, List.mem_nil_iff, or_false] at hop
  rcases hop with rfl; simp only [StableHlo.unary_writes, Finset.mem_singleton]; exact StableHlo.devRef_ne_of_ne h

theorem W1_of_ne (c : Dev nD) (b : Ref sig .tc) (h0 : b ≠ main_v0) (h1 : b ≠ main_v1) : W1 m ρ c b = m ((c : Thread nD τ).loc b) :=
  StableHlo.after_of_forall_not_mem (b := Proc.devRef .tc b) hostOps0 (W0 m ρ c) (not_written0 b h0 h1)
theorem W3_of_ne (c : Dev nD) (b : Ref sig .tc) (h : b ≠ main_v3) : W3 m ρ c b = W2 m ρ c b :=
  StableHlo.after_of_forall_not_mem (b := Proc.devRef .tc b) hostOps1 (W2 m ρ c) (not_written1 b h)

/-- A buffer no host line and no write-back touches ends as launched. -/
theorem W3_kept (c : Dev nD) (b : Ref sig .tc) (h0 : b ≠ main_v0) (h1 : b ≠ main_v1) (h2 : b ≠ main_v2_0) (h3 : b ≠ main_v2_1)
    (h4 : b ≠ main_v2_2) (h5 : b ≠ main_v3) : W3 m ρ c b = m ((c : Thread nD τ).loc b) :=
  (W3_of_ne m ρ c b h5).trans ((W2_of_ne m ρ c b h2 h3 h4).trans (W1_of_ne m ρ c b h0 h1))

theorem W3_res5 (c : Dev nD) : W3 m ρ c main_v2_0 = res5 m ρ c := (W3_of_ne m ρ c main_v2_0 (by decide)).trans (W2_res5 m ρ c)
theorem W3_res6 (c : Dev nD) : W3 m ρ c main_v2_1 = res6 m ρ c := (W3_of_ne m ρ c main_v2_1 (by decide)).trans (W2_res6 m ρ c)
theorem W3_res7 (c : Dev nD) : W3 m ρ c main_v2_2 = res7 m ρ c := (W3_of_ne m ρ c main_v2_2 (by decide)).trans (W2_res7 m ρ c)

/-- The tap weights as the region finds them: the weight matrix transposed. -/
theorem W1_v0 (c : Dev nD) : (W1 m ρ c main_v0 : S4x8448.Idx → Elt F .f32)
    = transpose S4x8448 [1, 0] (m ((c : Thread nD τ).loc main_arg2)) transposes_S8448x4_S4x8448_1_0 := by
  show StableHlo.after hostOps0 (fun b => m (c, b)) (Proc.devRef .tc main_v0) = _
  after_results
/-- The bias as the region finds it: laid as one row. -/
theorem W1_v1 (c : Dev nD) : (W1 m ρ c main_v1 : S1x8448.Idx → Elt F .f32)
    = broadcastInDim S1x8448 ![1] bcast_S8448_S1x8448_1 (m ((c : Thread nD τ).loc main_arg3)) := by
  show StableHlo.after hostOps0 (fun b => m (c, b)) (Proc.devRef .tc main_v1) = _
  after_results
/-- The fourth result: the last four rows of the sequence. -/
theorem W3_v3 (c : Dev nD) : (W3 m ρ c main_v3 : S4x8448.Idx → Elt F .f32)
    = extractStridedSlice S4x8448 ![8188, 0] (m ((c : Thread nD τ).loc main_arg0)) slices_S8192x8448_S4x8448_8188_0 := by
  have e : W2 m ρ c main_arg0 = m ((c : Thread nD τ).loc main_arg0) :=
    (W2_of_ne m ρ c main_arg0 (by decide) (by decide) (by decide)).trans (W1_of_ne m ρ c main_arg0 (by decide) (by decide))
  rw [← e]
  show StableHlo.after hostOps1 (W2 m ρ c) (Proc.devRef .tc main_v3) = _
  after_results

/-- THE FRAME: every weakly fair execution of @main terminates, nothing faulting, with the four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_kept m ρ c main_arg0 (by decide) (by decide) (by decide) (by decide) (by decide) (by decide)),
     (h c _ (mem_uc main_arg1 (by decide))).trans (W3_kept m ρ c main_arg1 (by decide) (by decide) (by decide) (by decide) (by decide) (by decide)),
     (h c _ (mem_uc main_arg2 (by decide))).trans (W3_kept m ρ c main_arg2 (by decide) (by decide) (by decide) (by decide) (by decide) (by decide)),
     (h c _ (mem_uc main_arg3 (by decide))).trans (W3_kept m ρ c main_arg3 (by decide) (by decide) (by decide) (by decide) (by decide) (by decide))⟩)
    (run_whole m ρ)

/-- THE RUN, READ: the three results at what the 64 write-backs leave, the fourth the last four rows of the sequence,
    the arguments as launched. -/
theorem run_values : θ_run defs (onTc (τ := τ) (main (F := F))) ⟨m, fun _ => 0, ρ⟩ (fun r => ∀ c : Dev nD,
      r.2.mem ((c.tc : Thread nD τ).loc main_v2_0) = res5 m ρ c
      ∧ r.2.mem ((c.tc : Thread nD τ).loc main_v2_1) = res6 m ρ c
      ∧ r.2.mem ((c.tc : Thread nD τ).loc main_v2_2) = res7 m ρ c
      ∧ r.2.mem ((c.tc : Thread nD τ).loc main_v3)
          = extractStridedSlice S4x8448 ![8188, 0] (m ((c : Thread nD τ).loc main_arg0)) slices_S8192x8448_S4x8448_8188_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2_0 (by decide))).trans (W3_res5 m ρ c),
     (h c _ (mem_uc main_v2_1 (by decide))).trans (W3_res6 m ρ c),
     (h c _ (mem_uc main_v2_2 (by decide))).trans (W3_res7 m ρ c),
     (h c _ (mem_uc main_v3 (by decide))).trans (W3_v3 m ρ c),
     (h c _ (mem_uc main_arg0 (by decide))).trans (W3_kept m ρ c main_arg0 (by decide) (by decide) (by decide) (by decide) (by decide) (by decide)),
     (h c _ (mem_uc main_arg1 (by decide))).trans (W3_kept m ρ c main_arg1 (by decide) (by decide) (by decide) (by decide) (by decide) (by decide)),
     (h c _ (mem_uc main_arg2 (by decide))).trans (W3_kept m ρ c main_arg2 (by decide) (by decide) (by decide) (by decide) (by decide) (by decide)),
     (h c _ (mem_uc main_arg3 (by decide))).trans (W3_kept m ρ c main_arg3 (by decide) (by decide) (by decide) (by decide) (by decide) (by decide))⟩)
    (run_whole m ρ)

end Read

end Cert.Kernel.Whole

end
-- ==== Proof.Ideal.Tile.lean ====
/-
  One tile of the causal convolution, as a program on its staging buffers.

  At a grid point the body is handed five input buffers — a tile of 128 rows of the sequence, the 8 rows
  that precede the tile (for the first tile: the first 8 rows, unused), the 4 rows of initial state, the 4 tap
  weights laid out one row per tap, the bias as one row — and three output buffers, the tile's result cut along
  the channels into widths 8192, 128 and 128. It loads the inputs whole (the weights a row at a time),
  computes, and stores each output buffer whole. This module states what each output buffer holds afterwards
  as a function of the five inputs' contents ('tileOut5', 'tileOut6', 'tileOut7': the one store of each, over the
  body's arithmetic named by the generated skeleton), and proves the body's triple: run on whole buffers
  holding the inputs and anything in the outputs, it terminates with the inputs unchanged and the outputs at
  those functions. Nothing here depends on the float instance.
-/
import proofs.«162170_j60765197304309_2_alg».proof.Proof.Gen.KernelIdeal.Launch
import proofs.«162170_j60765197304309_2_alg».proof.Proof.Gen.KernelIdeal.Skeleton
import proofs.«162170_j60765197304309_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- The whole of a 128-row tile, of the 8 preceding rows, of the state, of the bias row. -/
abbrev rTile : Rect S128x8448 := Rect.unit (s := S128x8448) ![0, 0] S128x8448.size inb_S128x8448_S128x8448_0_0
abbrev rPrev : Rect S8x8448 := Rect.unit (s := S8x8448) ![0, 0] S8x8448.size inb_S8x8448_S8x8448_0_0
abbrev rState : Rect S4x8448 := Rect.unit (s := S4x8448) ![0, 0] S4x8448.size inb_S4x8448_S4x8448_0_0
abbrev rBias : Rect S1x8448 := Rect.unit (s := S1x8448) ![0, 0] S1x8448.size inb_S1x8448_S1x8448_0_0
/-- Row j of the tap weights. -/
abbrev rTap0 : Rect S4x8448 := Rect.unit (s := S4x8448) ![0, 0] S1x8448.size inb_S4x8448_S1x8448_0_0
abbrev rTap1 : Rect S4x8448 := Rect.unit (s := S4x8448) ![1, 0] S1x8448.size inb_S4x8448_S1x8448_1_0
abbrev rTap2 : Rect S4x8448 := Rect.unit (s := S4x8448) ![2, 0] S1x8448.size inb_S4x8448_S1x8448_2_0
abbrev rTap3 : Rect S4x8448 := Rect.unit (s := S4x8448) ![3, 0] S1x8448.size inb_S4x8448_S1x8448_3_0
/-- The whole of each output buffer. -/
abbrev rWide : Rect S128x8192 := Rect.unit (s := S128x8192) ![0, 0] S128x8192.size inb_S128x8192_S128x8192_0_0
abbrev rNarrow : Rect S128x128 := Rect.unit (s := S128x128) ![0, 0] S128x128.size inb_S128x128_S128x128_0_0

/-! ## What the body leaves in each output buffer -/

section Outs

variable (i : grid0.Coords) (x0 : Vec F S128x8448 .f32) (x1 : Vec F S8x8448 .f32) (x2 : Vec F S4x8448 .f32)
  (x3 : Vec F S4x8448 .f32) (x4 : Vec F S1x8448 .f32)

/-- The rows that precede the tile's first row: the state at the first grid point, else the last four of the
    eight preceding rows. -/
abbrev carry : Vec F S4x8448 .f32 := k0_pay5 i (View.ld x1 rPrev) (View.ld x2 rState)
/-- The bias row as the body reshapes it. -/
abbrev biasRow : FVec F S1x8448 .f32 := k0_pay6 (View.ld x4 rBias)
/-- The tile's result by the four rotated taps (right for every row but the first few). -/
abbrev bulk : FVec F S128x8448 .f32 :=
  k0_pay7 (View.ld x0 rTile) (View.ld x4 rBias) (View.ld x3 rTap0) (View.ld x3 rTap1) (View.ld x3 rTap2) (View.ld x3 rTap3)

/-- The first output buffer after the body: its one store, of channels [0, 8192). -/
def tileOut5 : Vec F S128x8192 .f32 :=
  View.canon [⟨rWide, k0_pay2 (View.ld x0 rTile) (carry i x1 x2) (biasRow x4) (bulk x0 x3 x4)
    (View.ld x3 rTap0) (View.ld x3 rTap1) (View.ld x3 rTap2) (View.ld x3 rTap3)⟩]
/-- The second: channels [8192, 8320). -/
def tileOut6 : Vec F S128x128 .f32 :=
  View.canon [⟨rNarrow, k0_pay3 (View.ld x0 rTile) (carry i x1 x2) (biasRow x4) (bulk x0 x3 x4)
    (View.ld x3 rTap0) (View.ld x3 rTap1) (View.ld x3 rTap2) (View.ld x3 rTap3)⟩]
/-- The third: channels [8320, 8448). -/
def tileOut7 : Vec F S128x128 .f32 :=
  View.canon [⟨rNarrow, k0_pay4 (View.ld x0 rTile) (carry i x1 x2) (biasRow x4) (bulk x0 x3 x4)
    (View.ld x3 rTap0) (View.ld x3 rTap1) (View.ld x3 rTap2) (View.ld x3 rTap3)⟩]

end Outs

/-- A store through the whole of a buffer covers it. -/
theorem coverWide (p0 : Vec F S128x8192 .f32) (y : S128x8192.Idx) :
    ∃ pc ∈ ([⟨rWide, p0⟩] : List (View.Piece (Elt F) S128x8192 .f32)), y ∈ pc.1.set :=
  View.cover_of_tiled [⟨rWide, p0⟩] S128x8192.size (by rfl) y
theorem coverNarrow (p0 : Vec F S128x128 .f32) (y : S128x128.Idx) :
    ∃ pc ∈ ([⟨rNarrow, p0⟩] : List (View.Piece (Elt F) S128x128 .f32)), y ∈ pc.1.set :=
  View.cover_of_tiled [⟨rNarrow, p0⟩] S128x128.size (by rfl) y

/-! ## The body's triple -/

set_option maxHeartbeats 4000000 in
/-- The body on whole staging buffers, the inputs' at contents 'x0 … x4' and the outputs' at anything, runs to the
    continuation holding the inputs' as they were and each output's at its 'tileOut'. -/
theorem tile_triple (c : Dev nD) (E : Set ℕ) (i : grid0.Coords)
    (arg1 : Memref sig .tc .vmem S128x8448 .f32) (harg1 : arg1.IsWhole) (arg2 : Memref sig .tc .vmem S8x8448 .f32) (harg2 : arg2.IsWhole)
    (arg3 : Memref sig .tc .vmem S4x8448 .f32) (harg3 : arg3.IsWhole) (arg4 : Memref sig .tc .vmem S4x8448 .f32) (harg4 : arg4.IsWhole)
    (arg5 : Memref sig .tc .vmem S1x8448 .f32) (harg5 : arg5.IsWhole) (arg6 : Memref sig .tc .vmem S128x8192 .f32) (harg6 : arg6.IsWhole)
    (arg7 : Memref sig .tc .vmem S128x128 .f32) (harg7 : arg7.IsWhole) (arg8 : Memref sig .tc .vmem S128x128 .f32) (harg8 : arg8.IsWhole)
    (x0 : Vec F S128x8448 .f32) (x1 : Vec F S8x8448 .f32) (x2 : Vec F S4x8448 .f32) (x3 : Vec F S4x8448 .f32) (x4 : Vec F S1x8448 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (tileOut5 i x0 x1 x2 x3 x4) ∗ owns (c : Thread nD τ) arg7 fullShare (tileOut6 i x0 x1 x2 x3 x4)
            ∗ owns (c : Thread nD τ) arg8 fullShare (tileOut7 i x0 x1 x2 x3 x4)) -∗ K ⟨⟩))
      ⊢ wp frame (wpE (defs₀ (F := F)) Variants.none c none) E
          (cc0__cconv_kernel i arg1 harg1 arg2 harg2 arg3 harg3 arg4 harg4 arg5 harg5 arg6 harg6 arg7 harg7 arg8 harg8) K := by
  simp only [cc0__cconv_kernel_eq_skeleton]; unfold cc0__cconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverWide _)
  isplitl [H6]
  · iexists _; isplitr
    swap; · iexact H6
    ipureintro
    exact View.read_writes_eq_canon _ _ _ (coverNarrow _)
  iexists _; isplitr
  swap; · iexact H7
  ipureintro
  exact View.read_writes_eq_canon _ _ _ (coverNarrow _)

/-! ## The proof data of the pipeline -/

section Data

/- The contents of the core's buffers when the region is entered. -/
variable (V : (c : Dev nD) → (b : Ref sig .tc) → Buf (Elt F) ((c : Thread nD τ).loc b))

/-- Window 'w''s block at grid point 't', read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data on core 'c'. The arrays are as the region finds them. After the body at point 't' every input's
    buffer still holds its block and each output's holds the tile's result for its channels. The sequence array is
    read through two windows (the tile and the rows before it), so each holds half of it; every other input is
    held whole. Nothing is owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => tileOut5 (grid0.coords t) (iblk V c 0 t) (iblk V c 1 t) (iblk V c 2 t) (iblk V c 3 t) (iblk V c 4 t)
    | ⟨6, _⟩ => tileOut6 (grid0.coords t) (iblk V c 0 t) (iblk V c 1 t) (iblk V c 2 t) (iblk V c 3 t) (iblk V c 4 t)
    | ⟨7, _⟩ => tileOut7 (grid0.coords t) (iblk V c 0 t) (iblk V c 1 t) (iblk V c 2 t) (iblk V c 3 t) (iblk V c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t
    = tileOut5 (grid0.coords t) (iblk V c 0 t) (iblk V c 1 t) (iblk V c 2 t) (iblk V c 3 t) (iblk V c 4 t) := by dsimp only [dat]
theorem after_6 (c : Dev nD) (t : Fin cfg0.N) : (dat V c).after 6 t
    = tileOut6 (grid0.coords t) (iblk V c 0 t) (iblk V c 1 t) (iblk V c 2 t) (iblk V c 3 t) (iblk V c 4 t) := by dsimp only [dat]
theorem after_7 (c : Dev nD) (t : Fin cfg0.N) : (dat V c).after 7 t
    = tileOut7 (grid0.coords t) (iblk V c 0 t) (iblk V c 1 t) (iblk V c 2 t) (iblk V c 3 t) (iblk V c 4 t) := by dsimp only [dat]

/-- Every input's current staging buffer holds its block at every point, fetched there or not: an input that is not
    fetched again has not moved. -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)

/-! ## The body obligation -/

/-- What the body is called with at point 't', the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the inputs' buffers hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (tile_triple c Set.univ (grid0.coords t) _ _ _ _ _ _ _ _ _ _ _ _ _ _ _ _
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation (c : Dev nD) : BodyObligation (dat (F := F) V c) (defs₀ (F := F)) Variants.none () Set.univ := fun t => by
  rw [bigSep_W0, bigSep_W0]
  exact sound_body V c t

end Data

end Cert.KernelIdeal.Tile

end
-- ==== Proof.Ideal.Whole.lean ====
/-
  The whole program around the tiles: the host lines before the region (the tap weights transposed, the bias laid
  as a row), the region over the 64 tiles, the host line after it (the last four rows of the sequence cut out).
-/
import proofs.«162170_j60765197304309_2_alg».proof.Proof.Ideal.Tile
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays behind the windows: seven buffers for eight windows -/

/-- The distinct buffers behind the eight windows' arrays, one by one: the sequence (read by two windows), the
    state, the transposed weights, the bias row and the three results. -/
theorem arrBufs_list (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_v1) ↦{fullShare} V main_v1)
          ∗ (((c : Thread nD τ).loc main_v2_0) ↦{fullShare} V main_v2_0) ∗ (((c : Thread nD τ).loc main_v2_1) ↦{fullShare} V main_v2_1)
          ∗ (((c : Thread nD τ).loc main_v2_2) ↦{fullShare} V main_v2_2)) := by
  unfold Pipeline.arrBufs
  exact bigSep_eq_bigSepL_of_eq [main_arg0, main_arg1, main_v0, main_v1, main_v2_0, main_v2_1, main_v2_2] (by decide) (by decide) _

variable (V : (c : Dev nD) → (b : Ref sig .tc) → Buf (Elt F) ((c : Thread nD τ).loc b))

/-- The windows' arrays as the proof data holds them, one by one: each a whole buffer, the sequence's two windows at
    the two halves of its share. -/
theorem arrays_list (c : Dev nD) (A : (w : Fin cfg0.W) → Buf (Elt F) ((cfg0.win w).arr.view.loc (c : Thread nD τ))) :
    ((dat V c).arrays A : sProp 𝕄)
      = iprop((((c : Thread nD τ).loc main_arg0) ↦{fullShare.left} A 0) ∗ (((c : Thread nD τ).loc main_arg0) ↦{fullShare.right} A 1)
          ∗ (((c : Thread nD τ).loc main_arg1) ↦{fullShare} A 2) ∗ (((c : Thread nD τ).loc main_v0) ↦{fullShare} A 3)
          ∗ (((c : Thread nD τ).loc main_v1) ↦{fullShare} A 4) ∗ (((c : Thread nD τ).loc main_v2_0) ↦{fullShare} A 5)
          ∗ (((c : Thread nD τ).loc main_v2_1) ↦{fullShare} A 6) ∗ (((c : Thread nD τ).loc main_v2_2) ↦{fullShare} A 7)) := by
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ, (arr_whole0 7).set_eq_univ]
  rfl

/-- ENTRY: the seven buffers, whole, make the eight windows' arrays: the sequence's share is cut in two, one half
    for the window of tiles and one for the window of preceding rows. -/
theorem arrays_of_arrBufs (c : Dev nD) (W : (b : Ref sig .tc) → Buf (Elt F) ((c : Thread nD τ).loc b))
    (A : (w : Fin cfg0.W) → Buf (Elt F) ((cfg0.win w).arr.view.loc (c : Thread nD τ))) (hA : ∀ w, A w = W (Pipeline.arrRef spec0 w)) :
    (Pipeline.arrBufs (Ix := Unit) (Name := ℕ) (U := UR sig nD τ) (Lvl := ℕ) spec0 c W : sProp 𝕄) ⊢ (dat V c).arrays A := by
  rw [arrBufs_list, arrays_list, hA 0, hA 1, hA 2, hA 3, hA 4, hA 5, hA 6, hA 7]
  iintro ⟨H0, H1, H2, H3, H4, H5, H6⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  isplitl [H3]; · iexact H3
  isplitl [H4]; · iexact H4
  isplitl [H5]; · iexact H5
  iexact H6

/-- EXIT: the eight arrays give the seven buffers back whole, the two halves of the sequence's share joined (both
    windows hold it at the same contents: neither is ever written). -/
theorem arrBufs_of_arrays (c : Dev nD) (W : (b : Ref sig .tc) → Buf (Elt F) ((c : Thread nD τ).loc b))
    (A : (w : Fin cfg0.W) → Buf (Elt F) ((cfg0.win w).arr.view.loc (c : Thread nD τ))) (hA : ∀ w, A w = W (Pipeline.arrRef spec0 w)) :
    (dat V c).arrays A ⊢ (Pipeline.arrBufs (Ix := Unit) (Name := ℕ) (U := UR sig nD τ) (Lvl := ℕ) spec0 c W : sProp 𝕄) := by
  rw [arrBufs_list, arrays_list, hA 0, hA 1, hA 2, hA 3, hA 4, hA 5, hA 6, hA 7]
  iintro ⟨H0l, H0r, H1, H2, H3, H4, H5, H6⟩
  isplitl [H0l H0r]
  · iapply (pointsTo_share (PosShare.mem_left_op_right fullShare)).2
    isplitl [H0l]; · iexact H0l
    iexact H0r
  isplitl [H1]; · iexact H1
  isplitl [H2]; · iexact H2
  isplitl [H3]; · iexact H3
  isplitl [H4]; · iexact H4
  isplitl [H5]; · iexact H5
  iexact H6

/-- The core's unscoped buffers at 'W' are the seven buffers behind the windows and the three that bypass the region. -/
theorem unscopedBufs_cut (c : Dev nD) (W : (b : Ref sig .tc) → Buf (Elt F) ((c : Thread nD τ).loc b)) :
    (unscopedBufs c W : sProp 𝕄) = iprop((Pipeline.arrBufs (Ix := Unit) (Name := ℕ) (U := UR sig nD τ) (Lvl := ℕ) spec0 c W : sProp 𝕄)
      ∗ Pipeline.unscopedRest (Ix := Unit) (Name := ℕ) (U := UR sig nD τ) (Lvl := ℕ) spec0 c W) :=
  Pipeline.unscopedBufs_split₀ (Ix := Unit) (Name := ℕ) (U := UR sig nD τ) (Lvl := ℕ) (Val := Elt F) cfgs 0 winFacts₀0.arr_unscoped c W

/-! ## The buffers' contents at each boundary of @main -/

section Run

variable (m : (ℓ : Loc nD τ sig) → Buf (Elt F) ℓ) (ρ : Dev nD → PrngReg)

/-- Core 'c''s buffers at launch; -/
abbrev W0 : Dev nD → Valuation τ sig (Elt F) := fun c b => (s₀ m ρ).mem ((c : Dev nD), b)
/-- after the two host lines before the region (the weights transposed, the bias laid as a row); -/
abbrev W1 : Dev nD → Valuation τ sig (Elt F) := fun c => StableHlo.after hostOps0 (W0 m ρ c)
/-- the same read at the TensorCore's references: what the region's proof data take. -/
abbrev V1 : (c : Dev nD) → (b : Ref sig .tc) → Buf (Elt F) ((c : Thread nD τ).loc b) := fun c b => W1 m ρ c b

/-- The three results when the region is left: each output window's array after the write-backs of all 64 tiles. -/
abbrev res5 (c : Dev nD) : Buf (Elt F) ((c : Thread nD τ).loc main_v2_0) := (dat (V1 m ρ) c).arrAt 5 cfg0.N
abbrev res6 (c : Dev nD) : Buf (Elt F) ((c : Thread nD τ).loc main_v2_1) := (dat (V1 m ρ) c).arrAt 6 cfg0.N
abbrev res7 (c : Dev nD) : Buf (Elt F) ((c : Thread nD τ).loc main_v2_2) := (dat (V1 m ρ) c).arrAt 7 cfg0.N

/-- At the region's exit: the three results written, every other buffer as the region found it. -/
def W2 (c : Dev nD) : Valuation τ sig (Elt F) :=
  Function.update (Function.update (Function.update (W1 m ρ c) main_v2_0 (res5 m ρ c)) main_v2_1 (res6 m ρ c)) main_v2_2 (res7 m ρ c)
abbrev V2 : (c : Dev nD) → (b : Ref sig .tc) → Buf (Elt F) ((c : Thread nD τ).loc b) := fun c b => W2 m ρ c b
/-- After the host line that follows the region (the last four rows of the sequence cut out). -/
abbrev W3 : Dev nD → Valuation τ sig (Elt F) := fun c => StableHlo.after hostOps1 (W2 m ρ c)

theorem W2_res7 (c : Dev nD) : W2 m ρ c main_v2_2 = res7 m ρ c := by
  unfold W2; exact Function.update_self _ _ _
theorem W2_res6 (c : Dev nD) : W2 m ρ c main_v2_1 = res6 m ρ c := by
  unfold W2
  rw [Function.update_of_ne (StableHlo.devRef_ne_of_ne (by decide) : (Proc.devRef .tc main_v2_1 : DevRef τ sig) ≠ Proc.devRef .tc main_v2_2)]
  exact Function.update_self _ _ _
theorem W2_res5 (c : Dev nD) : W2 m ρ c main_v2_0 = res5 m ρ c := by
  unfold W2
  rw [Function.update_of_ne (StableHlo.devRef_ne_of_ne (by decide) : (Proc.devRef .tc main_v2_0 : DevRef τ sig) ≠ Proc.devRef .tc main_v2_2),
    Function.update_of_ne (StableHlo.devRef_ne_of_ne (by decide) : (Proc.devRef .tc main_v2_0 : DevRef τ sig) ≠ Proc.devRef .tc main_v2_1)]
  exact Function.update_self _ _ _
/-- The region changes no other buffer. -/
theorem W2_of_ne (c : Dev nD) (b : Ref sig .tc) (h0 : b ≠ main_v2_0) (h1 : b ≠ main_v2_1) (h2 : b ≠ main_v2_2) :
    W2 m ρ c b = W1 m ρ c b := by
  unfold W2
  rw [Function.update_of_ne (StableHlo.devRef_ne_of_ne h2), Function.update_of_ne (StableHlo.devRef_ne_of_ne h1),
    Function.update_of_ne (StableHlo.devRef_ne_of_ne h0)]

/-- At the exit each window's array holds what the pipeline leaves: an input what it held at entry, an output its
    write-backs. -/
theorem exit_arr (c : Dev nD) (w : Fin cfg0.W) : (dat (V1 m ρ) c).arrAt w cfg0.N = V2 m ρ c (Pipeline.arrRef spec0 w) :=
  match w with
  | ⟨0, _⟩ => (((dat (V1 m ρ) c).arrAt_in 0 rfl _).trans (A_eq (V1 m ρ) c 0)).trans (W2_of_ne m ρ c main_arg0 (by decide) (by decide) (by decide)).symm
  | ⟨1, _⟩ => (((dat (V1 m ρ) c).arrAt_in 1 rfl _).trans (A_eq (V1 m ρ) c 1)).trans (W2_of_ne m ρ c main_arg0 (by decide) (by decide) (by decide)).symm
  | ⟨2, _⟩ => (((dat (V1 m ρ) c).arrAt_in 2 rfl _).trans (A_eq (V1 m ρ) c 2)).trans (W2_of_ne m ρ c main_arg1 (by decide) (by decide) (by decide)).symm
  | ⟨3, _⟩ => (((dat (V1 m ρ) c).arrAt_in 3 rfl _).trans (A_eq (V1 m ρ) c 3)).trans (W2_of_ne m ρ c main_v0 (by decide) (by decide) (by decide)).symm
  | ⟨4, _⟩ => (((dat (V1 m ρ) c).arrAt_in 4 rfl _).trans (A_eq (V1 m ρ) c 4)).trans (W2_of_ne m ρ c main_v1 (by decide) (by decide) (by decide)).symm
  | ⟨5, _⟩ => (W2_res5 m ρ c).symm
  | ⟨6, _⟩ => (W2_res6 m ρ c).symm
  | ⟨7, _⟩ => (W2_res7 m ρ c).symm

/-- A buffer behind no window is as the region found it. -/
theorem exit_rest (c : Dev nD) (b : Ref sig .tc) (hb : b ∉ Finset.univ.image (Pipeline.arrRef spec0)) : V2 m ρ c b = V1 m ρ c b :=
  W2_of_ne m ρ c b (fun e => hb (Finset.mem_image.mpr ⟨5, Finset.mem_univ _, e.symm⟩))
    (fun e => hb (Finset.mem_image.mpr ⟨6, Finset.mem_univ _, e.symm⟩)) (fun e => hb (Finset.mem_image.mpr ⟨7, Finset.mem_univ _, e.symm⟩))

/-- ENTRY of the region: every unscoped buffer held at 'W1' is the windows' arrays at their entry contents and the
    three buffers that bypass the region. -/
theorem entry_split (c : Dev nD) :
    (StableHlo.held (c : Thread nD τ) (Pipeline.ucRefs τ sig) (W1 m ρ c) : sProp 𝕄)
      ⊢ iprop((dat (V1 m ρ) c).arrays ((dat (V1 m ρ) c).arrAt · 0)
          ∗ Pipeline.unscopedRest (Ix := Unit) (Name := ℕ) (U := UR sig nD τ) (Lvl := ℕ) spec0 c (V1 m ρ c)) := by
  rw [← Pipeline.unscopedBufs_held, unscopedBufs_cut]
  exact sep_mono (arrays_of_arrBufs (V1 m ρ) c _ _ fun w => A_eq (V1 m ρ) c w) .rfl

/-- EXIT: the arrays at their final contents and the bypassing buffers are every unscoped buffer held at 'W2'. -/
theorem exit_join (c : Dev nD) :
    iprop((dat (V1 m ρ) c).arrays ((dat (V1 m ρ) c).arrAt · cfg0.N)
        ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  rw [← Pipeline.unscopedBufs_held, unscopedBufs_cut]
  refine sep_mono (arrBufs_of_arrays (V1 m ρ) c _ _ (exit_arr m ρ c)) (Entails.of_eq ?_)
  unfold Pipeline.unscopedRest
  exact bigSep_congr fun b hb => congrArg (fun x : Buf (Elt F) ((c : Thread nD τ).loc b) => (((c : Thread nD τ).loc b) ↦{fullShare} x : sProp 𝕄))
    (exit_rest m ρ c b (Finset.mem_sdiff.mp hb).2).symm

end Run

/-! ## @main as segments, and the run -/

section Launch

variable (m : (ℓ : Loc nD τ sig) → Buf (Elt F) ℓ) (ρ : Dev nD → PrngReg)

/-- No prefetched table. -/
abbrev adm : (p : Fin 1) → (pcfgs (F := F) p).Adm := fun p => (cfgs p).toPCfg_adm
/-- The one pipeline's proof data, at the region's entry contents. -/
def pdats (_ : Fin 1) (c : Dev nD) : Dat τ (Elt F) Unit ℕ (UR sig nD τ) ℕ cfg0 c := dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A line of host operations as a segment over the unscoped buffers from the contents 'W'. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for what the core owes. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- THE REGION over the thread state: entered from every unscoped buffer at 'W1', left at 'W2'. Its arrays are cut out
    of the unscoped buffers, the sequence's share in two, and put back at the exit contents; the generator register
    goes into the invariant and comes out; nothing is owed; the kernel names no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (StableHlo.held (c : Thread nD τ) (Pipeline.ucRefs τ sig) (W1 m ρ c) : sProp 𝕄)
        ⊢ iprop((pdats m ρ 0 c).arrays ((pdats m ρ 0 c).arrAt · 0)
          ∗ Pipeline.unscopedRest (Ix := Unit) (Name := ℕ) (U := UR sig nD τ) (Lvl := ℕ) spec0 c (V1 m ρ c)) := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
          ∗ Pipeline.unscopedRest (Ix := Unit) (Name := ℕ) (U := UR sig nD τ) (Lvl := ℕ) spec0 c (V1 m ρ c))
        ⊢ (StableHlo.held (c : Thread nD τ) (Pipeline.ucRefs τ sig) (W2 m ρ c) : sProp 𝕄) := exit_join m ρ c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's items: the two host lines, the region, the host line after it. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state has every unscoped buffer at the last boundary's contents 'W3'. -/
theorem run_whole : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show (iprop(StableHlo.held (c : Thread nD τ) (Pipeline.ucRefs τ sig) (W3 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Launch

/-! ## What the last boundary holds -/

section Read

variable (m : (ℓ : Loc nD τ sig) → Buf (Elt F) ℓ) (ρ : Dev nD → PrngReg)

/-- The host lines before the region write only the transposed weights and the bias row; -/
theorem not_written0 (b : Ref sig .tc) (h0 : b ≠ main_v0) (h1 : b ≠ main_v1) :
    ∀ op ∈ (hostOps0 (F := F)), Proc.devRef .tc b ∉ op.writes := by
  intro op hop
  simp only [List.mem_cons, List.mem_nil_iff, or_false] at hop
  rcases hop with rfl | rfl <;> simp only [StableHlo.unary_writes, Finset.mem_singleton] <;> exact StableHlo.devRef_ne_of_ne ‹_›
/-- the line after it only the cut-out rows. -/
theorem not_written1 (b : Ref sig .tc) (h : b ≠ main_v3) :
    ∀ op ∈ (hostOps1 (F := F)), Proc.devRef .tc b ∉ op.writes := by
  intro op hop
  simp only [List.mem_cons, List.mem_nil_iff, or_false] at hop
  rcases hop with rfl; simp only [StableHlo.unary_writes, Finset.mem_singleton]; exact StableHlo.devRef_ne_of_ne h

theorem W1_of_ne (c : Dev nD) (b : Ref sig .tc) (h0 : b ≠ main_v0) (h1 : b ≠ main_v1) : W1 m ρ c b = m ((c : Thread nD τ).loc b) :=
  StableHlo.after_of_forall_not_mem (b := Proc.devRef .tc b) hostOps0 (W0 m ρ c) (not_written0 b h0 h1)
theorem W3_of_ne (c : Dev nD) (b : Ref sig .tc) (h : b ≠ main_v3) : W3 m ρ c b = W2 m ρ c b :=
  StableHlo.after_of_forall_not_mem (b := Proc.devRef .tc b) hostOps1 (W2 m ρ c) (not_written1 b h)

/-- A buffer no host line and no write-back touches ends as launched. -/
theorem W3_kept (c : Dev nD) (b : Ref sig .tc) (h0 : b ≠ main_v0) (h1 : b ≠ main_v1) (h2 : b ≠ main_v2_0) (h3 : b ≠ main_v2_1)
    (h4 : b ≠ main_v2_2) (h5 : b ≠ main_v3) : W3 m ρ c b = m ((c : Thread nD τ).loc b) :=
  (W3_of_ne m ρ c b h5).trans ((W2_of_ne m ρ c b h2 h3 h4).trans (W1_of_ne m ρ c b h0 h1))

theorem W3_res5 (c : Dev nD) : W3 m ρ c main_v2_0 = res5 m ρ c := (W3_of_ne m ρ c main_v2_0 (by decide)).trans (W2_res5 m ρ c)
theorem W3_res6 (c : Dev nD) : W3 m ρ c main_v2_1 = res6 m ρ c := (W3_of_ne m ρ c main_v2_1 (by decide)).trans (W2_res6 m ρ c)
theorem W3_res7 (c : Dev nD) : W3 m ρ c main_v2_2 = res7 m ρ c := (W3_of_ne m ρ c main_v2_2 (by decide)).trans (W2_res7 m ρ c)

/-- The tap weights as the region finds them: the weight matrix transposed. -/
theorem W1_v0 (c : Dev nD) : (W1 m ρ c main_v0 : S4x8448.Idx → Elt F .f32)
    = transpose S4x8448 [1, 0] (m ((c : Thread nD τ).loc main_arg2)) transposes_S8448x4_S4x8448_1_0 := by
  show StableHlo.after hostOps0 (fun b => m (c, b)) (Proc.devRef .tc main_v0) = _
  after_results
/-- The bias as the region finds it: laid as one row. -/
theorem W1_v1 (c : Dev nD) : (W1 m ρ c main_v1 : S1x8448.Idx → Elt F .f32)
    = broadcastInDim S1x8448 ![1] bcast_S8448_S1x8448_1 (m ((c : Thread nD τ).loc main_arg3)) := by
  show StableHlo.after hostOps0 (fun b => m (c, b)) (Proc.devRef .tc main_v1) = _
  after_results
/-- The fourth result: the last four rows of the sequence. -/
theorem W3_v3 (c : Dev nD) : (W3 m ρ c main_v3 : S4x8448.Idx → Elt F .f32)
    = extractStridedSlice S4x8448 ![8188, 0] (m ((c : Thread nD τ).loc main_arg0)) slices_S8192x8448_S4x8448_8188_0 := by
  have e : W2 m ρ c main_arg0 = m ((c : Thread nD τ).loc main_arg0) :=
    (W2_of_ne m ρ c main_arg0 (by decide) (by decide) (by decide)).trans (W1_of_ne m ρ c main_arg0 (by decide) (by decide))
  rw [← e]
  show StableHlo.after hostOps1 (W2 m ρ c) (Proc.devRef .tc main_v3) = _
  after_results

/-- THE FRAME: every weakly fair execution of @main terminates, nothing faulting, with the four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_kept m ρ c main_arg0 (by decide) (by decide) (by decide) (by decide) (by decide) (by decide)),
     (h c _ (mem_uc main_arg1 (by decide))).trans (W3_kept m ρ c main_arg1 (by decide) (by decide) (by decide) (by decide) (by decide) (by decide)),
     (h c _ (mem_uc main_arg2 (by decide))).trans (W3_kept m ρ c main_arg2 (by decide) (by decide) (by decide) (by decide) (by decide) (by decide)),
     (h c _ (mem_uc main_arg3 (by decide))).trans (W3_kept m ρ c main_arg3 (by decide) (by decide) (by decide) (by decide) (by decide) (by decide))⟩)
    (run_whole m ρ)

/-- THE RUN, READ: the three results at what the 64 write-backs leave, the fourth the last four rows of the sequence,
    the arguments as launched. -/
theorem run_values : θ_run defs (onTc (τ := τ) (main (F := F))) ⟨m, fun _ => 0, ρ⟩ (fun r => ∀ c : Dev nD,
      r.2.mem ((c.tc : Thread nD τ).loc main_v2_0) = res5 m ρ c
      ∧ r.2.mem ((c.tc : Thread nD τ).loc main_v2_1) = res6 m ρ c
      ∧ r.2.mem ((c.tc : Thread nD τ).loc main_v2_2) = res7 m ρ c
      ∧ r.2.mem ((c.tc : Thread nD τ).loc main_v3)
          = extractStridedSlice S4x8448 ![8188, 0] (m ((c : Thread nD τ).loc main_arg0)) slices_S8192x8448_S4x8448_8188_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2_0 (by decide))).trans (W3_res5 m ρ c),
     (h c _ (mem_uc main_v2_1 (by decide))).trans (W3_res6 m ρ c),
     (h c _ (mem_uc main_v2_2 (by decide))).trans (W3_res7 m ρ c),
     (h c _ (mem_uc main_v3 (by decide))).trans (W3_v3 m ρ c),
     (h c _ (mem_uc main_arg0 (by decide))).trans (W3_kept m ρ c main_arg0 (by decide) (by decide) (by decide) (by decide) (by decide) (by decide)),
     (h c _ (mem_uc main_arg1 (by decide))).trans (W3_kept m ρ c main_arg1 (by decide) (by decide) (by decide) (by decide) (by decide) (by decide)),
     (h c _ (mem_uc main_arg2 (by decide))).trans (W3_kept m ρ c main_arg2 (by decide) (by decide) (by decide) (by decide) (by decide) (by decide)),
     (h c _ (mem_uc main_arg3 (by decide))).trans (W3_kept m ρ c main_arg3 (by decide) (by decide) (by decide) (by decide) (by decide) (by decide))⟩)
    (run_whole m ρ)

end Read

end Cert.KernelIdeal.Whole

end
-- ==== Proof.ConvSpec.lean ====
import Idealize.ShloMosaic.PureOps.Ideal
import Idealize.ShloMosaic.Lib.ValueIdx

/-!
# A causal depthwise convolution with four taps, index by index

The rows of the carried state (four of them) followed by the rows of the input form the padded array of
8196 rows and 8448 channels. Output row `i`, channel `c` is

  (((bias c + padded i c * weight c 0) + padded (i+1) c * weight c 1) + padded (i+2) c * weight c 2)
      + padded (i+3) c * weight c 3

over the extended reals, the sum associated from the left beginning with the bias and each product written
tap first, weight second. The 8448 channels of the output are handed back as three arrays: channels
[0, 8192), [8192, 8320) and [8320, 8448). A fourth array is the last four rows of the input: the state
carried to the next call.

`tap` is the same padded array seen from inside one block of 128 rows: the rows before the block are the
carried state when the block is the first one, and the last four rows of the eight-row window that precedes
the block otherwise.
-/

noncomputable section

namespace Cert.Conv

open Idealize.ShloMosaic Idealize.ShloMosaic.ValueIdx

/-- Row `n` of the padded array at channel `k`: the state's row `n` for `n < 4`, else the input's row `n - 4`. -/
def padded (inp : (⟨2, ![8192, 8448]⟩ : Shape).Idx → EReal) (st : (⟨2, ![4, 8448]⟩ : Shape).Idx → EReal)
    (n : Nat) (hn : n < 8196) (k : Fin 8448) : EReal :=
  if h : n < 4 then st (ix2 (⟨n, h⟩ : Fin 4) k) else inp (ix2 (⟨n - 4, by omega⟩ : Fin 8192) k)

/-- The padded array read at two equal row numbers. -/
theorem padded_congr (inp : (⟨2, ![8192, 8448]⟩ : Shape).Idx → EReal) (st : (⟨2, ![4, 8448]⟩ : Shape).Idx → EReal)
    {n n' : Nat} (e : n = n') (hn : n < 8196) (hn' : n' < 8196) (k : Fin 8448) :
    padded inp st n hn k = padded inp st n' hn' k := by
  subst e; rfl

/-- The convolution at row `i`, channel `k`. -/
def conv (inp : (⟨2, ![8192, 8448]⟩ : Shape).Idx → EReal) (st : (⟨2, ![4, 8448]⟩ : Shape).Idx → EReal)
    (w : (⟨2, ![8448, 4]⟩ : Shape).Idx → EReal) (b : (⟨1, ![8448]⟩ : Shape).Idx → EReal)
    (i : Fin 8192) (k : Fin 8448) : EReal :=
  (((b (ix1 k)
      + padded inp st i.val (by have := i.isLt; omega) k * w (ix2 k (⟨0, by omega⟩ : Fin 4)))
      + padded inp st (i.val + 1) (by have := i.isLt; omega) k * w (ix2 k (⟨1, by omega⟩ : Fin 4)))
      + padded inp st (i.val + 2) (by have := i.isLt; omega) k * w (ix2 k (⟨2, by omega⟩ : Fin 4)))
      + padded inp st (i.val + 3) (by have := i.isLt; omega) k * w (ix2 k (⟨3, by omega⟩ : Fin 4))

/-- Channels [0, 8192) of the convolution. -/
def out0 (inp : (⟨2, ![8192, 8448]⟩ : Shape).Idx → EReal) (st : (⟨2, ![4, 8448]⟩ : Shape).Idx → EReal)
    (w : (⟨2, ![8448, 4]⟩ : Shape).Idx → EReal) (b : (⟨1, ![8448]⟩ : Shape).Idx → EReal) :
    (⟨2, ![8192, 8192]⟩ : Shape).Idx → EReal :=
  fun j => conv inp st w b ⟨(j 0).val, idx2_lt0 j⟩ ⟨(j 1).val, by have := idx2_lt1 j; omega⟩

/-- Channels [8192, 8320) of the convolution. -/
def out1 (inp : (⟨2, ![8192, 8448]⟩ : Shape).Idx → EReal) (st : (⟨2, ![4, 8448]⟩ : Shape).Idx → EReal)
    (w : (⟨2, ![8448, 4]⟩ : Shape).Idx → EReal) (b : (⟨1, ![8448]⟩ : Shape).Idx → EReal) :
    (⟨2, ![8192, 128]⟩ : Shape).Idx → EReal :=
  fun j => conv inp st w b ⟨(j 0).val, idx2_lt0 j⟩ ⟨8192 + (j 1).val, by have := idx2_lt1 j; omega⟩

/-- Channels [8320, 8448) of the convolution. -/
def out2 (inp : (⟨2, ![8192, 8448]⟩ : Shape).Idx → EReal) (st : (⟨2, ![4, 8448]⟩ : Shape).Idx → EReal)
    (w : (⟨2, ![8448, 4]⟩ : Shape).Idx → EReal) (b : (⟨1, ![8448]⟩ : Shape).Idx → EReal) :
    (⟨2, ![8192, 128]⟩ : Shape).Idx → EReal :=
  fun j => conv inp st w b ⟨(j 0).val, idx2_lt0 j⟩ ⟨8320 + (j 1).val, by have := idx2_lt1 j; omega⟩

/-- The last four rows of the input. -/
def out3 (inp : (⟨2, ![8192, 8448]⟩ : Shape).Idx → EReal) : (⟨2, ![4, 8448]⟩ : Shape).Idx → EReal :=
  fun j => inp (ix2 (⟨8188 + (j 0).val, by have := idx2_lt0 j; omega⟩ : Fin 8192) (⟨(j 1).val, idx2_lt1 j⟩ : Fin 8448))

/-- Tap `j` of row `r` of a block of 128 rows, channel `k`: with `x0` the block, `x1` the eight rows of the input
    that precede it (read only when the block is not the first), `x2` the carried state and `g` the block's number,
    the row `r + j` of [carry; x0] where the carry is `x2` when `g = 0` and rows 4..7 of `x1` otherwise. -/
def tap (x0 : (⟨2, ![128, 8448]⟩ : Shape).Idx → EReal) (x1 : (⟨2, ![8, 8448]⟩ : Shape).Idx → EReal)
    (x2 : (⟨2, ![4, 8448]⟩ : Shape).Idx → EReal) (g : Nat) (r : Fin 128) (k : Fin 8448) (j : Nat) (hj : j < 4) : EReal :=
  if h : r.val + j < 4 then
    (if g = 0 then x2 (ix2 (⟨r.val + j, h⟩ : Fin 4) k) else x1 (ix2 (⟨4 + (r.val + j), by omega⟩ : Fin 8) k))
  else x0 (ix2 (⟨r.val + j - 4, by have := r.isLt; omega⟩ : Fin 128) k)

end Cert.Conv

end
-- ==== Proof.ConvBody.lean ====
import proofs.«162170_j60765197304309_2_alg».proof.Proof.ConvSpec
import proofs.«162170_j60765197304309_2_alg».proof.Proof.Gen.KernelIdeal.Skeleton
import Idealize.ShloMosaic.Lib.Pipeline.Value
import Idealize.ShloMosaic.Lib.ValueLayout
import Idealize.ShloMosaic.Lib.KernelVsHost

/-!
# One block of the kernel computes the convolution's rows

A block of 128 rows `x0` is convolved with its four preceding rows, the carry: the carried state `x2` in the first
block, rows 4..7 of the eight-row window `x1` before the block otherwise. The body computes the block twice.
Rows 0..7 come from the twelve rows [carry; rows 0..7 of `x0`] cut at row offsets 0, 1, 2, 3: tap `j` of row `r`
is row `r + j` of the twelve. Rows 8..127 come from `x0` rotated downwards by `4 - j` rows: tap `j` of row `r` is row
`(r - (4 - j)) mod 128 = r + j - 4` of `x0`, no wrap since `r ≥ 8`. Both are `tap … r k j`. Each tap is multiplied
by the weight row `j` broadcast over the rows, tap first, and the products are added to the broadcast bias row from
the left. The stored values are the column ranges [0, 8192), [8192, 8320), [8320, 8448) of the result.
-/

noncomputable section

namespace Cert.Conv

open Cert.KernelIdeal Cert.KernelIdeal.Gen
open Idealize.ShloMosaic Idealize.ShloMosaic.ValueIdx

/-- One step of the accumulation at an index: the sum so far plus tap times weight. -/
theorem step_apply {s : Shape} (acc t wv : FVec Ideal s .f32) (j : s.Idx) {A T W : EReal}
    (hA : acc j = A) (hT : t j = T) (hW : wv j = W) : addf acc (mulf t wv) j = A + T * W := by
  rw [addf_apply, mulf_apply, hA, hT, hW]

/-- A row cast to itself and broadcast over `a` rows reads the row. -/
theorem bias_row_apply {a : Nat} (v : FVec Ideal S1x8448 .f32) (h : S1x8448.ShapeCasts S1x8448)
    (hb : S1x8448.Broadcasts ⟨2, ![a, 8448]⟩) (p : Fin a) (k : Fin 8448) :
    broadcastTo ⟨2, ![a, 8448]⟩ (shapeCast S1x8448 v h) hb (ix2 p k) = v (ix2 (0 : Fin 1) k) :=
  (broadcastTo_1b_ab_apply _ hb p k).trans (congrFun (shapeCast_self v h) _)

/-- The bias row as the body first casts it reads the bias. -/
theorem pay6_apply (x4 : Vec Ideal S1x8448 .f32) (k : Fin 8448) :
    k0_pay6 x4 (ix2 (0 : Fin 1) k) = x4 (ix2 (0 : Fin 1) k) := by
  unfold k0_pay6
  exact congrFun (shapeCast_self x4 _) _

/-- A weight row flattened, made a row again and broadcast over `a` rows reads the row. -/
theorem wrow_apply {a : Nat} (v : Vec Ideal S1x8448 .f32) (h1 : S1x8448.ShapeCasts S8448) (h2 : S8448.ShapeCasts S1x8448)
    (hb : S1x8448.Broadcasts ⟨2, ![a, 8448]⟩) (p : Fin a) (k : Fin 8448) :
    broadcastTo ⟨2, ![a, 8448]⟩ (shapeCast S1x8448 (shapeCast S8448 v h1) h2) hb (ix2 p k) = v (ix2 (0 : Fin 1) k) :=
  (broadcastTo_1b_ab_apply _ hb p k).trans
    ((shapeCast_a_1a_apply _ h2 (0 : Fin 1) k).trans (shapeCast_1a_a_apply v h1 k))

/-- The comparison of a block number below 64 with zero. -/
theorem cmpi_eq0 (g : Nat) (hg : g < 64) :
    Scalar.cmpi .eq (BitVec.ofNat 32 g) 0#32 = if g = 0 then 1#1 else 0#1 := by
  interval_cases g <;> rfl

/-- The carry at row `n`: the state in the first block, row `4 + n` of the preceding window otherwise. -/
theorem pay5_apply (i : grid0.Coords) (x1 : Vec Ideal S8x8448 .f32) (x2 : Vec Ideal S4x8448 .f32) (n : Nat) (h : n < 4) (k : Fin 8448) :
    k0_pay5 i x1 x2 (ix2 (⟨n, h⟩ : Fin 4) k)
      = if (i 0).val = 0 then x2 (ix2 (⟨n, h⟩ : Fin 4) k) else x1 (ix2 (⟨4 + n, by omega⟩ : Fin 8) k) := by
  unfold k0_pay5
  show Scalar.select (Scalar.cmpi .eq (BitVec.ofNat 32 (i 0).val) 0#32) x2
      (extractStridedSlice S4x8448 ![4, 0] x1 _) (ix2 (⟨n, h⟩ : Fin 4) k) = _
  rw [cmpi_eq0 (i 0).val (i 0).isLt]
  by_cases hg : (i 0).val = 0
  · rw [if_pos hg, if_pos hg, select_one]
  · rw [if_neg hg, if_neg hg, select_zero]
    exact extractStridedSlice_apply ![4, 0] x1 _ _ _ (fun a => match a with
      | ⟨0, _⟩ => rfl
      | ⟨1, _⟩ => by show k.val = 0 + k.val; omega)

/-- Tap `j` of a row below 8: row `r + j` of the twelve rows [carry; rows 0..7 of the block]. -/
theorem head_tap_apply (x0 : Vec Ideal S128x8448 .f32) (x1 : Vec Ideal S8x8448 .f32) (x2 : Vec Ideal S4x8448 .f32) (i : grid0.Coords)
    (r : Fin 128) (hr : r.val < 8) (k : Fin 8448) (j : Nat) (hj : j < 4)
    (hs0 : S128x8448.Slices ![0, 0] S8x8448) (hc : Shape.Concatenates [S4x8448, S8x8448] S12x8448 0)
    (hs : S12x8448.Slices ![j, 0] S8x8448) :
    extractStridedSlice S8x8448 ![j, 0]
        (concatenate S12x8448 0 [⟨S4x8448, k0_pay5 i x1 x2⟩, ⟨S8x8448, extractStridedSlice S8x8448 ![0, 0] x0 hs0⟩] hc)
        hs (ix2 (⟨r.val, hr⟩ : Fin 8) k)
      = tap x0 x1 x2 (i 0).val r k j hj := by
  refine (extractStridedSlice_apply ![j, 0] _ hs (ix2 (⟨r.val, hr⟩ : Fin 8) k) (ix2 (⟨j + r.val, by omega⟩ : Fin 12) k)
    (fun a => match a with
      | ⟨0, _⟩ => rfl
      | ⟨1, _⟩ => by show k.val = 0 + k.val; omega)).trans ?_
  unfold tap
  by_cases h : r.val + j < 4
  · rw [dif_pos h]
    refine (concatenate_pair_apply_left (t := S12x8448) (s₁ := S4x8448) (s₂ := S8x8448) (0 : Fin 2) _ _ hc _ rfl
      (ix2 (⟨r.val + j, h⟩ : Fin 4) k) (fun b => match b with
        | ⟨0, _⟩ => by show r.val + j = j + r.val; omega
        | ⟨1, _⟩ => rfl)).trans ?_
    exact pay5_apply i x1 x2 (r.val + j) h k
  · rw [dif_neg h]
    refine (concatenate_pair_apply_right (t := S12x8448) (s₁ := S4x8448) (s₂ := S8x8448) (0 : Fin 2) _ _ hc _ rfl rfl
      (ix2 (⟨r.val + j - 4, by omega⟩ : Fin 8) k)
      (fun b hb => match b, hb with
        | ⟨0, _⟩, hb => absurd rfl hb
        | ⟨1, _⟩, _ => rfl)
      (by show r.val + j - 4 + 4 = j + r.val; omega)).trans ?_
    exact extractStridedSlice_apply ![0, 0] x0 hs0 _ (ix2 (⟨r.val + j - 4, by omega⟩ : Fin 128) k) (fun a => match a with
      | ⟨0, _⟩ => by show r.val + j - 4 = 0 + (r.val + j - 4); omega
      | ⟨1, _⟩ => by show k.val = 0 + k.val; omega)

/-- From row 8 on every tap is a row of the block itself. -/
theorem tap_of_ge (x0 : Vec Ideal S128x8448 .f32) (x1 : Vec Ideal S8x8448 .f32) (x2 : Vec Ideal S4x8448 .f32) (g : Nat)
    (r : Fin 128) (hr : 8 ≤ r.val) (k : Fin 8448) (j : Nat) (hj : j < 4) :
    tap x0 x1 x2 g r k j hj = x0 (ix2 (⟨r.val + j - 4, by have := r.isLt; omega⟩ : Fin 128) k) := by
  unfold tap
  rw [dif_neg (by omega)]

/-- Tap `j` of a row from 8 on: the block rotated downwards by `4 - j` rows. -/
theorem rot_tap_apply (x0 : Vec Ideal S128x8448 .f32) (x1 : Vec Ideal S8x8448 .f32) (x2 : Vec Ideal S4x8448 .f32) (g : Nat)
    (sb : BitVec 32) (j : Nat) (hj : j < 4) (hsb : sb.toNat = 4 - j)
    (hrot : S128x8448.Rotates 0 none) (r : Fin 128) (hr : 8 ≤ r.val) (k : Fin 8448) :
    dynamicRotate 0 sb none x0 hrot (ix2 r k) = tap x0 x1 x2 g r k j hj := by
  have hlt : r.val < 128 := r.isLt
  rw [tap_of_ge x0 x1 x2 g r hr k j hj]
  exact dynamicRotate_apply (0 : Fin 2) sb x0 hrot (ix2 r k) (ix2 (⟨r.val + j - 4, by omega⟩ : Fin 128) k)
    (fun b => match b with
      | ⟨0, _⟩ => by
        show r.val + j - 4 = (r.val + 128 - sb.toNat % 128) % 128
        rw [hsb]; omega
      | ⟨1, _⟩ => rfl)

/-- The rotated accumulation at a row from 8 on. -/
theorem pay7_apply (x0 : Vec Ideal S128x8448 .f32) (x1 : Vec Ideal S8x8448 .f32) (x2 : Vec Ideal S4x8448 .f32)
    (w0 w1 w2 w3 : Vec Ideal S1x8448 .f32) (x4 : Vec Ideal S1x8448 .f32) (i : grid0.Coords) (r : Fin 128) (hr : 8 ≤ r.val) (k : Fin 8448) :
    k0_pay7 x0 x4 w0 w1 w2 w3 (ix2 r k)
      = (((x4 (ix2 (0 : Fin 1) k)
        + tap x0 x1 x2 (i 0).val r k 0 (by omega) * w0 (ix2 (0 : Fin 1) k))
        + tap x0 x1 x2 (i 0).val r k 1 (by omega) * w1 (ix2 (0 : Fin 1) k))
        + tap x0 x1 x2 (i 0).val r k 2 (by omega) * w2 (ix2 (0 : Fin 1) k))
        + tap x0 x1 x2 (i 0).val r k 3 (by omega) * w3 (ix2 (0 : Fin 1) k) := by
  unfold k0_pay7
  show addf (addf (addf (addf _ (mulf _ _)) (mulf _ _)) (mulf _ _)) (mulf _ _) (ix2 r k) = _
  refine step_apply _ _ _ _ (step_apply _ _ _ _ (step_apply _ _ _ _ (step_apply _ _ _ _ ?_ ?_ ?_) ?_ ?_) ?_ ?_) ?_ ?_
  · exact (bias_row_apply _ _ _ r k).trans (pay6_apply x4 k)
  · exact rot_tap_apply x0 x1 x2 (i 0).val 4#32 0 (by omega) rfl _ r hr k
  · exact wrow_apply w0 _ _ _ r k
  · exact rot_tap_apply x0 x1 x2 (i 0).val 3#32 1 (by omega) rfl _ r hr k
  · exact wrow_apply w1 _ _ _ r k
  · exact rot_tap_apply x0 x1 x2 (i 0).val 2#32 2 (by omega) rfl _ r hr k
  · exact wrow_apply w2 _ _ _ r k
  · exact rot_tap_apply x0 x1 x2 (i 0).val 1#32 3 (by omega) rfl _ r hr k
  · exact wrow_apply w3 _ _ _ r k

/-- THE BLOCK AT AN INDEX: row `r`, channel `k` of the value the body slices and stores is the bias plus the four
    taps times their weights, added from the left. -/
theorem pay1_apply (x0 : Vec Ideal S128x8448 .f32) (x1 : Vec Ideal S8x8448 .f32) (x2 : Vec Ideal S4x8448 .f32)
    (w0 w1 w2 w3 : Vec Ideal S1x8448 .f32) (x4 : Vec Ideal S1x8448 .f32) (i : grid0.Coords) (r : Fin 128) (k : Fin 8448) :
    k0_pay1 x0 (k0_pay5 i x1 x2) (k0_pay6 x4) (k0_pay7 x0 x4 w0 w1 w2 w3) w0 w1 w2 w3 (ix2 r k)
      = (((x4 (ix2 (0 : Fin 1) k)
        + tap x0 x1 x2 (i 0).val r k 0 (by omega) * w0 (ix2 (0 : Fin 1) k))
        + tap x0 x1 x2 (i 0).val r k 1 (by omega) * w1 (ix2 (0 : Fin 1) k))
        + tap x0 x1 x2 (i 0).val r k 2 (by omega) * w2 (ix2 (0 : Fin 1) k))
        + tap x0 x1 x2 (i 0).val r k 3 (by omega) * w3 (ix2 (0 : Fin 1) k) := by
  have hlt : r.val < 128 := r.isLt
  unfold k0_pay1
  show concatenate S128x8448 0 [⟨S8x8448, _⟩, ⟨S120x8448, _⟩] _ (ix2 r k) = _
  by_cases hr : r.val < 8
  · refine (concatenate_pair_apply_left (t := S128x8448) (s₁ := S8x8448) (s₂ := S120x8448) (0 : Fin 2) _ _ _ (ix2 r k) rfl
      (ix2 (⟨r.val, hr⟩ : Fin 8) k) (fun b => match b with
        | ⟨0, _⟩ => rfl
        | ⟨1, _⟩ => rfl)).trans ?_
    refine step_apply _ _ _ _ (step_apply _ _ _ _ (step_apply _ _ _ _ (step_apply _ _ _ _ ?_ ?_ ?_) ?_ ?_) ?_ ?_) ?_ ?_
    · exact (bias_row_apply _ _ _ (⟨r.val, hr⟩ : Fin 8) k).trans (pay6_apply x4 k)
    · exact head_tap_apply x0 x1 x2 i r hr k 0 (by omega) _ _ _
    · exact wrow_apply w0 _ _ _ (⟨r.val, hr⟩ : Fin 8) k
    · exact head_tap_apply x0 x1 x2 i r hr k 1 (by omega) _ _ _
    · exact wrow_apply w1 _ _ _ (⟨r.val, hr⟩ : Fin 8) k
    · exact head_tap_apply x0 x1 x2 i r hr k 2 (by omega) _ _ _
    · exact wrow_apply w2 _ _ _ (⟨r.val, hr⟩ : Fin 8) k
    · exact head_tap_apply x0 x1 x2 i r hr k 3 (by omega) _ _ _
    · exact wrow_apply w3 _ _ _ (⟨r.val, hr⟩ : Fin 8) k
  · refine (concatenate_pair_apply_right (t := S128x8448) (s₁ := S8x8448) (s₂ := S120x8448) (0 : Fin 2) _ _ _ (ix2 r k) rfl rfl
      (ix2 (⟨r.val - 8, by omega⟩ : Fin 120) k)
      (fun b hb => match b, hb with
        | ⟨0, _⟩, hb => absurd rfl hb
        | ⟨1, _⟩, _ => rfl)
      (by show r.val - 8 + 8 = r.val; omega)).trans ?_
    refine (extractStridedSlice_apply ![8, 0] _ _ (ix2 (⟨r.val - 8, by omega⟩ : Fin 120) k) (ix2 r k) (fun a => match a with
      | ⟨0, _⟩ => by show r.val = 8 + (r.val - 8); omega
      | ⟨1, _⟩ => by show k.val = 0 + k.val; omega)).trans ?_
    exact pay7_apply x0 x1 x2 w0 w1 w2 w3 x4 i r (by omega) k

/-- The first stored value: channels [0, 8192) of the block. -/
theorem pay2_apply (x0 : Vec Ideal S128x8448 .f32) (x1 : Vec Ideal S8x8448 .f32) (x2 : Vec Ideal S4x8448 .f32)
    (w0 w1 w2 w3 : Vec Ideal S1x8448 .f32) (x4 : Vec Ideal S1x8448 .f32) (i : grid0.Coords) (r : Fin 128) (k : Fin 8192) :
    k0_pay2 x0 (k0_pay5 i x1 x2) (k0_pay6 x4) (k0_pay7 x0 x4 w0 w1 w2 w3) w0 w1 w2 w3 (ix2 r k)
      = (((x4 (ix2 (0 : Fin 1) (⟨k.val, by have := k.isLt; omega⟩ : Fin 8448))
        + tap x0 x1 x2 (i 0).val r (⟨k.val, by have := k.isLt; omega⟩ : Fin 8448) 0 (by omega) * w0 (ix2 (0 : Fin 1) (⟨k.val, by have := k.isLt; omega⟩ : Fin 8448)))
        + tap x0 x1 x2 (i 0).val r (⟨k.val, by have := k.isLt; omega⟩ : Fin 8448) 1 (by omega) * w1 (ix2 (0 : Fin 1) (⟨k.val, by have := k.isLt; omega⟩ : Fin 8448)))
        + tap x0 x1 x2 (i 0).val r (⟨k.val, by have := k.isLt; omega⟩ : Fin 8448) 2 (by omega) * w2 (ix2 (0 : Fin 1) (⟨k.val, by have := k.isLt; omega⟩ : Fin 8448)))
        + tap x0 x1 x2 (i 0).val r (⟨k.val, by have := k.isLt; omega⟩ : Fin 8448) 3 (by omega) * w3 (ix2 (0 : Fin 1) (⟨k.val, by have := k.isLt; omega⟩ : Fin 8448)) := by
  have hk : k.val < 8192 := k.isLt
  unfold k0_pay2
  exact (extractStridedSlice_apply ![0, 0] _ _ (ix2 r k) (ix2 r (⟨k.val, by omega⟩ : Fin 8448))
    (fun a => match a with
      | ⟨0, _⟩ => by show r.val = 0 + r.val; omega
      | ⟨1, _⟩ => by show k.val = 0 + k.val; omega)).trans
    (pay1_apply x0 x1 x2 w0 w1 w2 w3 x4 i r _)

/-- The second stored value: channels [8192, 8320) of the block. -/
theorem pay3_apply (x0 : Vec Ideal S128x8448 .f32) (x1 : Vec Ideal S8x8448 .f32) (x2 : Vec Ideal S4x8448 .f32)
    (w0 w1 w2 w3 : Vec Ideal S1x8448 .f32) (x4 : Vec Ideal S1x8448 .f32) (i : grid0.Coords) (r : Fin 128) (k : Fin 128) :
    k0_pay3 x0 (k0_pay5 i x1 x2) (k0_pay6 x4) (k0_pay7 x0 x4 w0 w1 w2 w3) w0 w1 w2 w3 (ix2 r k)
      = (((x4 (ix2 (0 : Fin 1) (⟨8192 + k.val, by have := k.isLt; omega⟩ : Fin 8448))
        + tap x0 x1 x2 (i 0).val r (⟨8192 + k.val, by have := k.isLt; omega⟩ : Fin 8448) 0 (by omega) * w0 (ix2 (0 : Fin 1) (⟨8192 + k.val, by have := k.isLt; omega⟩ : Fin 8448)))
        + tap x0 x1 x2 (i 0).val r (⟨8192 + k.val, by have := k.isLt; omega⟩ : Fin 8448) 1 (by omega) * w1 (ix2 (0 : Fin 1) (⟨8192 + k.val, by have := k.isLt; omega⟩ : Fin 8448)))
        + tap x0 x1 x2 (i 0).val r (⟨8192 + k.val, by have := k.isLt; omega⟩ : Fin 8448) 2 (by omega) * w2 (ix2 (0 : Fin 1) (⟨8192 + k.val, by have := k.isLt; omega⟩ : Fin 8448)))
        + tap x0 x1 x2 (i 0).val r (⟨8192 + k.val, by have := k.isLt; omega⟩ : Fin 8448) 3 (by omega) * w3 (ix2 (0 : Fin 1) (⟨8192 + k.val, by have := k.isLt; omega⟩ : Fin 8448)) := by
  have hk : k.val < 128 := k.isLt
  unfold k0_pay3
  exact (extractStridedSlice_apply ![0, 8192] _ _ (ix2 r k) (ix2 r (⟨8192 + k.val, by omega⟩ : Fin 8448))
    (fun a => match a with
      | ⟨0, _⟩ => by show r.val = 0 + r.val; omega
      | ⟨1, _⟩ => by show 8192 + k.val = 8192 + k.val; omega)).trans
    (pay1_apply x0 x1 x2 w0 w1 w2 w3 x4 i r _)

/-- The third stored value: channels [8320, 8448) of the block. -/
theorem pay4_apply (x0 : Vec Ideal S128x8448 .f32) (x1 : Vec Ideal S8x8448 .f32) (x2 : Vec Ideal S4x8448 .f32)
    (w0 w1 w2 w3 : Vec Ideal S1x8448 .f32) (x4 : Vec Ideal S1x8448 .f32) (i : grid0.Coords) (r : Fin 128) (k : Fin 128) :
    k0_pay4 x0 (k0_pay5 i x1 x2) (k0_pay6 x4) (k0_pay7 x0 x4 w0 w1 w2 w3) w0 w1 w2 w3 (ix2 r k)
      = (((x4 (ix2 (0 : Fin 1) (⟨8320 + k.val, by have := k.isLt; omega⟩ : Fin 8448))
        + tap x0 x1 x2 (i 0).val r (⟨8320 + k.val, by have := k.isLt; omega⟩ : Fin 8448) 0 (by omega) * w0 (ix2 (0 : Fin 1) (⟨8320 + k.val, by have := k.isLt; omega⟩ : Fin 8448)))
        + tap x0 x1 x2 (i 0).val r (⟨8320 + k.val, by have := k.isLt; omega⟩ : Fin 8448) 1 (by omega) * w1 (ix2 (0 : Fin 1) (⟨8320 + k.val, by have := k.isLt; omega⟩ : Fin 8448)))
        + tap x0 x1 x2 (i 0).val r (⟨8320 + k.val, by have := k.isLt; omega⟩ : Fin 8448) 2 (by omega) * w2 (ix2 (0 : Fin 1) (⟨8320 + k.val, by have := k.isLt; omega⟩ : Fin 8448)))
        + tap x0 x1 x2 (i 0).val r (⟨8320 + k.val, by have := k.isLt; omega⟩ : Fin 8448) 3 (by omega) * w3 (ix2 (0 : Fin 1) (⟨8320 + k.val, by have := k.isLt; omega⟩ : Fin 8448)) := by
  have hk : k.val < 128 := k.isLt
  unfold k0_pay4
  exact (extractStridedSlice_apply ![0, 8320] _ _ (ix2 r k) (ix2 r (⟨8320 + k.val, by omega⟩ : Fin 8448))
    (fun a => match a with
      | ⟨0, _⟩ => by show r.val = 0 + r.val; omega
      | ⟨1, _⟩ => by show 8320 + k.val = 8320 + k.val; omega)).trans
    (pay1_apply x0 x1 x2 w0 w1 w2 w3 x4 i r _)

end Cert.Conv

end
-- ==== Proof.Ideal.Blocks.lean ====
import proofs.«162170_j60765197304309_2_alg».proof.Proof.Ideal.Tile
import proofs.«162170_j60765197304309_2_alg».proof.Proof.ConvBody
import proofs.«162170_j60765197304309_2_alg».proof.Proof.ConvSpec
import proofs.«162170_j60765197304309_2_alg».proof.Proof.Gen.KernelIdeal.Points
import Idealize.ShloMosaic.Lib.Pipeline.Value

/-!
# From the tiles to the whole results

The sequence of 8192 rows is cut into 64 tiles of 128 rows; tile `t` is rows `128 t … 128 t + 127`. With it the body
is handed the eight rows `8 (16 t - 1) … 8 (16 t - 1) + 7` of the sequence (natural subtraction: the first eight rows
at `t = 0`), the state, the weights one row per tap and the bias row. Tap `j` of row `r` of tile `t` is row
`128 t + r + j` of the padded sequence [state; input]: for `r + j < 4` and `t = 0` it is the state's row `r + j`; for
`r + j < 4` and `t ≥ 1` it is row `4 + r + j` of the eight preceding rows, which is row
`8 (16 t - 1) + 4 + r + j = 128 t + r + j - 4` of the input; otherwise it is row `r + j - 4` of the tile, row
`128 t + r + j - 4` of the input. So row `r` of what tile `t` writes is row `128 t + r` of the convolution, the weights
read transposed and the bias read off its one row. The 64 row blocks of each result tile it: row `i` lies in
block `i / 128`. Hence each result ends holding its channel range of the convolution.
-/

noncomputable section

namespace Cert.KernelIdeal.Blocks

open Cert.KernelIdeal Cert.KernelIdeal.Gen Cert.KernelIdeal.Tile Cert.Conv
open Idealize.ShloMosaic Idealize.ShloMosaic.TcCoe Idealize.ShloMosaic.ValueIdx Idealize.SL.Sem
open Idealize.ShloMosaic.Pipeline (Dat)

/-! ## One tile, over plain arrays -/

/-- Tap `j` of row `r` of tile `t` is row `128 t + r + j` of the padded sequence. -/
theorem tap_eq_padded (inp : (⟨2, ![8192, 8448]⟩ : Shape).Idx → EReal) (st : (⟨2, ![4, 8448]⟩ : Shape).Idx → EReal)
    (x0 : (⟨2, ![128, 8448]⟩ : Shape).Idx → EReal) (x1 : (⟨2, ![8, 8448]⟩ : Shape).Idx → EReal) (x2 : (⟨2, ![4, 8448]⟩ : Shape).Idx → EReal) (t : Nat) (ht : t < 64)
    (h0 : ∀ (r : Fin 128) (k : Fin 8448), x0 (ix2 r k) = inp (ix2 (⟨128 * t + r.val, by have := r.isLt; omega⟩ : Fin 8192) k))
    (h1 : ∀ (r : Fin 8) (k : Fin 8448), x1 (ix2 r k) = inp (ix2 (⟨8 * (16 * t - 1) + r.val, by have := r.isLt; omega⟩ : Fin 8192) k))
    (h2 : ∀ (r : Fin 4) (k : Fin 8448), x2 (ix2 r k) = st (ix2 r k))
    (r : Fin 128) (k : Fin 8448) (j : Nat) (hj : j < 4) :
    tap x0 x1 x2 t r k j hj = padded inp st (128 * t + r.val + j) (by have := r.isLt; omega) k := by
  have hr : r.val < 128 := r.isLt
  unfold tap padded
  by_cases h : r.val + j < 4
  · rw [dif_pos h]
    by_cases hg : t = 0
    · rw [if_pos hg, dif_pos (by omega), h2]
      exact congrArg st (congrArg (fun a : Fin 4 => ix2 a k) (Fin.ext (by show r.val + j = 128 * t + r.val + j; omega)))
    · rw [if_neg hg, dif_neg (by omega), h1]
      exact congrArg inp (congrArg (fun a : Fin 8192 => ix2 a k)
        (Fin.ext (by show 8 * (16 * t - 1) + (4 + (r.val + j)) = 128 * t + r.val + j - 4; omega)))
  · rw [dif_neg h, dif_neg (by omega), h0]
    exact congrArg inp (congrArg (fun a : Fin 8192 => ix2 a k)
      (Fin.ext (by show 128 * t + (r.val + j - 4) = 128 * t + r.val + j - 4; omega)))

/-- Row `r` of tile `t`, channel `k`: the bias plus the four taps times their weights is the convolution at row
    `128 t + r`. -/
theorem tile_row (inp : (⟨2, ![8192, 8448]⟩ : Shape).Idx → EReal) (st : (⟨2, ![4, 8448]⟩ : Shape).Idx → EReal)
    (w : (⟨2, ![8448, 4]⟩ : Shape).Idx → EReal) (b : (⟨1, ![8448]⟩ : Shape).Idx → EReal)
    (x0 : (⟨2, ![128, 8448]⟩ : Shape).Idx → EReal) (x1 : (⟨2, ![8, 8448]⟩ : Shape).Idx → EReal) (x2 : (⟨2, ![4, 8448]⟩ : Shape).Idx → EReal)
    (w0 w1 w2 w3 x4 : (⟨2, ![1, 8448]⟩ : Shape).Idx → EReal) (g t : Nat) (hg : g = t) (ht : t < 64)
    (h0 : ∀ (r : Fin 128) (k : Fin 8448), x0 (ix2 r k) = inp (ix2 (⟨128 * t + r.val, by have := r.isLt; omega⟩ : Fin 8192) k))
    (h1 : ∀ (r : Fin 8) (k : Fin 8448), x1 (ix2 r k) = inp (ix2 (⟨8 * (16 * t - 1) + r.val, by have := r.isLt; omega⟩ : Fin 8192) k))
    (h2 : ∀ (r : Fin 4) (k : Fin 8448), x2 (ix2 r k) = st (ix2 r k))
    (hw0 : ∀ k : Fin 8448, w0 (ix2 (0 : Fin 1) k) = w (ix2 k (⟨0, by omega⟩ : Fin 4)))
    (hw1 : ∀ k : Fin 8448, w1 (ix2 (0 : Fin 1) k) = w (ix2 k (⟨1, by omega⟩ : Fin 4)))
    (hw2 : ∀ k : Fin 8448, w2 (ix2 (0 : Fin 1) k) = w (ix2 k (⟨2, by omega⟩ : Fin 4)))
    (hw3 : ∀ k : Fin 8448, w3 (ix2 (0 : Fin 1) k) = w (ix2 k (⟨3, by omega⟩ : Fin 4)))
    (h4 : ∀ k : Fin 8448, x4 (ix2 (0 : Fin 1) k) = b (ix1 k))
    (r : Fin 128) (k : Fin 8448) (hI : 128 * t + r.val < 8192) :
    (((x4 (ix2 (0 : Fin 1) k)
        + tap x0 x1 x2 g r k 0 (by omega) * w0 (ix2 (0 : Fin 1) k))
        + tap x0 x1 x2 g r k 1 (by omega) * w1 (ix2 (0 : Fin 1) k))
        + tap x0 x1 x2 g r k 2 (by omega) * w2 (ix2 (0 : Fin 1) k))
        + tap x0 x1 x2 g r k 3 (by omega) * w3 (ix2 (0 : Fin 1) k)
      = conv inp st w b (⟨128 * t + r.val, hI⟩ : Fin 8192) k := by
  subst hg
  unfold conv
  rw [h4, hw0, hw1, hw2, hw3, tap_eq_padded inp st x0 x1 x2 g ht h0 h1 h2 r k 0 (by omega),
    tap_eq_padded inp st x0 x1 x2 g ht h0 h1 h2 r k 1 (by omega),
    tap_eq_padded inp st x0 x1 x2 g ht h0 h1 h2 r k 2 (by omega),
    tap_eq_padded inp st x0 x1 x2 g ht h0 h1 h2 r k 3 (by omega)]
  rfl

/-! ## The zeros, and the index maps over the grid -/

theorem hz : (![0, 0] : Fin 2 → Nat) = fun _ => 0 := funext fun a => by fin_cases a <;> rfl

/-- The printed index maps, decided over the 64 grid points: the tile and the three results move with the point, the
    eight preceding rows are block `16 t - 1` of eight-row blocks (block 0 at the first point), the state, the weights
    and the bias do not move; the point's one coordinate is its number. -/
theorem idx_facts : ∀ t : Fin cfg0.N,
    win0_0.index t (0 : Fin 2) = t.val ∧ win0_0.index t (1 : Fin 2) = 0
    ∧ win0_1.index t (0 : Fin 2) = 16 * t.val - 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ (grid0.coords t 0).val = t.val :=
  (by decide +kernel : ∀ t : Fin grid0.N, _)

/-! ## Each input block, read where its rectangle says -/

section Inputs
variable (V : (c : Dev nD) → (b : Ref sig .tc) → Buf (Elt Ideal) ((c : Thread nD τ).loc b))

/-- The tile loaded whole: row `r` is row `128 t + r` of the sequence. -/
theorem blk0_apply (c : Dev nD) (t : Fin cfg0.N) (r : Fin 128) (k : Fin 8448) :
    View.ld (iblk V c 0 t) rTile (ix2 r k)
      = V c main_arg0 (ix2 (⟨128 * t.val + r.val, by have := r.isLt; have : t.val < 64 := t.isLt; omega⟩ : Fin 8192) k) := by
  obtain ⟨e00, e01, e10, e11, e20, e21, e30, e31, e40, e41, e50, e51, e60, e61, e70, e71, eg⟩ := idx_facts t
  show V c main_arg0 (((cfg0.win 0).blk t).view.emb (rTile.idx (ix2 r k))) = _
  exact congrArg (V c main_arg0) (funext fun a => Fin.ext (by
    match a with
    | ⟨0, _⟩ => show win0_0.index t (0 : Fin 2) * 128 + 1 * (0 + 1 * r.val) = 128 * t.val + r.val; omega
    | ⟨1, _⟩ => show win0_0.index t (1 : Fin 2) * 8448 + 1 * (0 + 1 * k.val) = k.val; omega))

/-- The eight preceding rows loaded whole: row `r` is row `8 (16 t - 1) + r` of the sequence. -/
theorem blk1_apply (c : Dev nD) (t : Fin cfg0.N) (r : Fin 8) (k : Fin 8448) :
    View.ld (iblk V c 1 t) rPrev (ix2 r k)
      = V c main_arg0 (ix2 (⟨8 * (16 * t.val - 1) + r.val, by have := r.isLt; have : t.val < 64 := t.isLt; omega⟩ : Fin 8192) k) := by
  obtain ⟨e00, e01, e10, e11, e20, e21, e30, e31, e40, e41, e50, e51, e60, e61, e70, e71, eg⟩ := idx_facts t
  show V c main_arg0 (((cfg0.win 1).blk t).view.emb (rPrev.idx (ix2 r k))) = _
  exact congrArg (V c main_arg0) (funext fun a => Fin.ext (by
    match a with
    | ⟨0, _⟩ => show win0_1.index t (0 : Fin 2) * 8 + 1 * (0 + 1 * r.val) = 8 * (16 * t.val - 1) + r.val; omega
    | ⟨1, _⟩ => show win0_1.index t (1 : Fin 2) * 8448 + 1 * (0 + 1 * k.val) = k.val; omega))

/-- The state loaded whole is the state. -/
theorem blk2_apply (c : Dev nD) (t : Fin cfg0.N) (r : Fin 4) (k : Fin 8448) :
    View.ld (iblk V c 2 t) rState (ix2 r k) = V c main_arg1 (ix2 r k) := by
  obtain ⟨e00, e01, e10, e11, e20, e21, e30, e31, e40, e41, e50, e51, e60, e61, e70, e71, eg⟩ := idx_facts t
  show V c main_arg1 (((cfg0.win 2).blk t).view.emb (rState.idx (ix2 r k))) = _
  exact congrArg (V c main_arg1) (funext fun a => Fin.ext (by
    match a with
    | ⟨0, _⟩ => show win0_2.index t (0 : Fin 2) * 4 + 1 * (0 + 1 * r.val) = r.val; omega
    | ⟨1, _⟩ => show win0_2.index t (1 : Fin 2) * 8448 + 1 * (0 + 1 * k.val) = k.val; omega))

/-- Row `J` of the weights loaded as one row: its entry `k` is the transposed weights at `(J, k)`. -/
theorem tap_row_apply (c : Dev nD) (t : Fin cfg0.N) (J : Nat) (hJ : J < 4)
    (inb : ∀ a, (![J, 0] : Fin 2 → Nat) a + S1x8448.size a ≤ S4x8448.size a) (k : Fin 8448) :
    View.ld (iblk V c 3 t) (Rect.unit (s := S4x8448) ![J, 0] S1x8448.size inb) (ix2 (0 : Fin 1) k)
      = V c main_v0 (ix2 (⟨J, hJ⟩ : Fin 4) k) := by
  obtain ⟨e00, e01, e10, e11, e20, e21, e30, e31, e40, e41, e50, e51, e60, e61, e70, e71, eg⟩ := idx_facts t
  show V c main_v0 (((cfg0.win 3).blk t).view.emb ((Rect.unit (s := S4x8448) ![J, 0] S1x8448.size inb).idx (ix2 (0 : Fin 1) k))) = _
  exact congrArg (V c main_v0) (funext fun a => Fin.ext (by
    match a with
    | ⟨0, _⟩ => show win0_3.index t (0 : Fin 2) * 4 + 1 * (J + 1 * 0) = J; omega
    | ⟨1, _⟩ => show win0_3.index t (1 : Fin 2) * 8448 + 1 * (0 + 1 * k.val) = k.val; omega))

/-- The bias row loaded whole is the bias row. -/
theorem blk4_apply (c : Dev nD) (t : Fin cfg0.N) (k : Fin 8448) :
    View.ld (iblk V c 4 t) rBias (ix2 (0 : Fin 1) k) = V c main_v1 (ix2 (0 : Fin 1) k) := by
  obtain ⟨e00, e01, e10, e11, e20, e21, e30, e31, e40, e41, e50, e51, e60, e61, e70, e71, eg⟩ := idx_facts t
  show V c main_v1 (((cfg0.win 4).blk t).view.emb (rBias.idx (ix2 (0 : Fin 1) k))) = _
  exact congrArg (V c main_v1) (funext fun a => Fin.ext (by
    match a with
    | ⟨0, _⟩ => show win0_4.index t (0 : Fin 2) * 1 + 1 * (0 + 1 * 0) = 0; omega
    | ⟨1, _⟩ => show win0_4.index t (1 : Fin 2) * 8448 + 1 * (0 + 1 * k.val) = k.val; omega))

end Inputs

/-! ## The first result: channels [0, 8192) -/

/-- What grid point `t` writes back to this result is block `t` of the convolution's channel range. -/
theorem flushed5_eq (V : (c : Dev nD) → (b : Ref sig .tc) → Buf (Elt Ideal) ((c : Thread nD τ).loc b)) (c : Dev nD)
    (w : (⟨2, ![8448, 4]⟩ : Shape).Idx → EReal) (b : (⟨1, ![8448]⟩ : Shape).Idx → EReal)
    (hw : ∀ (j : Fin 4) (k : Fin 8448), V c main_v0 (ix2 j k) = w (ix2 k j))
    (hb : ∀ k : Fin 8448, V c main_v1 (ix2 (0 : Fin 1) k) = b (ix1 k)) (t : Fin cfg0.N) :
    (dat V c).flushed 5 t
      = ((cfg0.win 5).blk t).view.read (Elt Ideal) (out0 (V c main_arg0) (V c main_arg1) w b) := by
  have ht : t.val < 64 := t.isLt
  obtain ⟨e00, e01, e10, e11, e20, e21, e30, e31, e40, e41, e50, e51, e60, e61, e70, e71, eg⟩ := idx_facts t
  show (cfg0.win 5).cut (grid0.coords t) ((dat V c).after 5 t) = _
  rw [after_5]
  unfold tileOut5
  rw [View.canon_unit_zero hz]
  funext j
  obtain ⟨r, k, rfl⟩ : ∃ (r : Fin 128) (k : Fin 8192), j = ix2 r k := ⟨j 0, j 1, eq_ix2 j⟩
  have hr : r.val < 128 := r.isLt
  have hk : k.val < 8192 := k.isLt
  refine (pay2_apply (View.ld (iblk V c 0 t) rTile) (View.ld (iblk V c 1 t) rPrev) (View.ld (iblk V c 2 t) rState)
    (View.ld (iblk V c 3 t) rTap0) (View.ld (iblk V c 3 t) rTap1) (View.ld (iblk V c 3 t) rTap2) (View.ld (iblk V c 3 t) rTap3)
    (View.ld (iblk V c 4 t) rBias) (grid0.coords t) r k).trans ?_
  refine (tile_row (V c main_arg0) (V c main_arg1) w b _ _ _ _ _ _ _ _ (grid0.coords t 0).val t.val eg ht
    (blk0_apply V c t) (blk1_apply V c t) (blk2_apply V c t)
    (fun k' => (tap_row_apply V c t 0 (by omega) inb_S4x8448_S1x8448_0_0 k').trans (hw _ k'))
    (fun k' => (tap_row_apply V c t 1 (by omega) inb_S4x8448_S1x8448_1_0 k').trans (hw _ k'))
    (fun k' => (tap_row_apply V c t 2 (by omega) inb_S4x8448_S1x8448_2_0 k').trans (hw _ k'))
    (fun k' => (tap_row_apply V c t 3 (by omega) inb_S4x8448_S1x8448_3_0 k').trans (hw _ k'))
    (fun k' => (blk4_apply V c t k').trans (hb k'))
    r (⟨k.val, by omega⟩ : Fin 8448) (by omega)).trans ?_
  show conv (V c main_arg0) (V c main_arg1) w b _ _
    = out0 (V c main_arg0) (V c main_arg1) w b (((cfg0.win 5).blk t).view.emb (ix2 r k))
  unfold out0
  exact congrArg₂ (conv (V c main_arg0) (V c main_arg1) w b)
    (Fin.ext (by show 128 * t.val + r.val = win0_5.index t (0 : Fin 2) * 128 + 1 * r.val; omega))
    (Fin.ext (by show k.val = win0_5.index t (1 : Fin 2) * 8192 + 1 * k.val; omega))

/-- An index of the result is in point `t`'s block iff each coordinate is in the block's range on its axis. -/
theorem mem_blk5 (t : Fin cfg0.N) (i : S8192x8192.Idx) :
    i ∈ ((cfg0.win 5).blk t).view.set
      ↔ ∀ a : Fin 2, win0_5.index t a * S128x8192.size a ≤ (i a).val ∧ (i a).val < win0_5.index t a * S128x8192.size a + S128x8192.size a := by
  show i ∈ ((View.whole main_v2_0).slice (win0_5.rect t)).set ↔ _
  rw [View.set_slice_whole, Rect.mem_set_unit]
  exact Iff.rfl

/-- Every index of the result is in the block of the point its row falls in. -/
theorem cover5 (i : S8192x8192.Idx) :
    ∃ t : Fin cfg0.N, (cfg0.win 5).flush t = true ∧ i ∈ ((cfg0.win 5).blk t).view.set := by
  have hi0 : (i 0).val < 8192 := (i 0).isLt
  have hi1 : (i 1).val < 8192 := (i 1).isLt
  have hN : cfg0.N = 64 := N_0
  refine ⟨⟨(i 0).val / 128, by omega⟩, flush0_5 _, ?_⟩
  obtain ⟨e00, e01, e10, e11, e20, e21, e30, e31, e40, e41, e50, e51, e60, e61, e70, e71, eg⟩ :=
    idx_facts ⟨(i 0).val / 128, by omega⟩
  rw [mem_blk5]
  intro a
  match a with
  | ⟨0, _⟩ =>
    show win0_5.index ⟨(i 0).val / 128, _⟩ (0 : Fin 2) * 128 ≤ (i 0).val
      ∧ (i 0).val < win0_5.index ⟨(i 0).val / 128, _⟩ (0 : Fin 2) * 128 + 128
    rw [e50]
    show (i 0).val / 128 * 128 ≤ (i 0).val ∧ (i 0).val < (i 0).val / 128 * 128 + 128
    omega
  | ⟨1, _⟩ =>
    show win0_5.index ⟨(i 0).val / 128, _⟩ (1 : Fin 2) * 8192 ≤ (i 1).val
      ∧ (i 1).val < win0_5.index ⟨(i 0).val / 128, _⟩ (1 : Fin 2) * 8192 + 8192
    rw [e51]
    omega

/-- THE RESULT after the run: the convolution's channel range, whole. -/
theorem final5 (V : (c : Dev nD) → (b : Ref sig .tc) → Buf (Elt Ideal) ((c : Thread nD τ).loc b)) (c : Dev nD)
    (w : (⟨2, ![8448, 4]⟩ : Shape).Idx → EReal) (b : (⟨1, ![8448]⟩ : Shape).Idx → EReal)
    (hw : ∀ (j : Fin 4) (k : Fin 8448), V c main_v0 (ix2 j k) = w (ix2 k j))
    (hb : ∀ k : Fin 8448, V c main_v1 (ix2 (0 : Fin 1) k) = b (ix1 k)) :
    (dat V c).arrAt 5 cfg0.N = out0 (V c main_arg0) (V c main_arg1) w b :=
  (dat V c).arrAt_eq_of_cover 5 _ (fun t _ => flushed5_eq V c w b hw hb t) cover5

/-! ## The second result: channels [8192, 8320) -/

/-- What grid point `t` writes back to this result is block `t` of the convolution's channel range. -/
theorem flushed6_eq (V : (c : Dev nD) → (b : Ref sig .tc) → Buf (Elt Ideal) ((c : Thread nD τ).loc b)) (c : Dev nD)
    (w : (⟨2, ![8448, 4]⟩ : Shape).Idx → EReal) (b : (⟨1, ![8448]⟩ : Shape).Idx → EReal)
    (hw : ∀ (j : Fin 4) (k : Fin 8448), V c main_v0 (ix2 j k) = w (ix2 k j))
    (hb : ∀ k : Fin 8448, V c main_v1 (ix2 (0 : Fin 1) k) = b (ix1 k)) (t : Fin cfg0.N) :
    (dat V c).flushed 6 t
      = ((cfg0.win 6).blk t).view.read (Elt Ideal) (out1 (V c main_arg0) (V c main_arg1) w b) := by
  have ht : t.val < 64 := t.isLt
  obtain ⟨e00, e01, e10, e11, e20, e21, e30, e31, e40, e41, e50, e51, e60, e61, e70, e71, eg⟩ := idx_facts t
  show (cfg0.win 6).cut (grid0.coords t) ((dat V c).after 6 t) = _
  rw [after_6]
  unfold tileOut6
  rw [View.canon_unit_zero hz]
  funext j
  obtain ⟨r, k, rfl⟩ : ∃ (r : Fin 128) (k : Fin 128), j = ix2 r k := ⟨j 0, j 1, eq_ix2 j⟩
  have hr : r.val < 128 := r.isLt
  have hk : k.val < 128 := k.isLt
  refine (pay3_apply (View.ld (iblk V c 0 t) rTile) (View.ld (iblk V c 1 t) rPrev) (View.ld (iblk V c 2 t) rState)
    (View.ld (iblk V c 3 t) rTap0) (View.ld (iblk V c 3 t) rTap1) (View.ld (iblk V c 3 t) rTap2) (View.ld (iblk V c 3 t) rTap3)
    (View.ld (iblk V c 4 t) rBias) (grid0.coords t) r k).trans ?_
  refine (tile_row (V c main_arg0) (V c main_arg1) w b _ _ _ _ _ _ _ _ (grid0.coords t 0).val t.val eg ht
    (blk0_apply V c t) (blk1_apply V c t) (blk2_apply V c t)
    (fun k' => (tap_row_apply V c t 0 (by omega) inb_S4x8448_S1x8448_0_0 k').trans (hw _ k'))
    (fun k' => (tap_row_apply V c t 1 (by omega) inb_S4x8448_S1x8448_1_0 k').trans (hw _ k'))
    (fun k' => (tap_row_apply V c t 2 (by omega) inb_S4x8448_S1x8448_2_0 k').trans (hw _ k'))
    (fun k' => (tap_row_apply V c t 3 (by omega) inb_S4x8448_S1x8448_3_0 k').trans (hw _ k'))
    (fun k' => (blk4_apply V c t k').trans (hb k'))
    r (⟨8192 + k.val, by omega⟩ : Fin 8448) (by omega)).trans ?_
  show conv (V c main_arg0) (V c main_arg1) w b _ _
    = out1 (V c main_arg0) (V c main_arg1) w b (((cfg0.win 6).blk t).view.emb (ix2 r k))
  unfold out1
  exact congrArg₂ (conv (V c main_arg0) (V c main_arg1) w b)
    (Fin.ext (by show 128 * t.val + r.val = win0_6.index t (0 : Fin 2) * 128 + 1 * r.val; omega))
    (Fin.ext (by show 8192 + k.val = 8192 + (win0_6.index t (1 : Fin 2) * 128 + 1 * k.val); omega))

/-- An index of the result is in point `t`'s block iff each coordinate is in the block's range on its axis. -/
theorem mem_blk6 (t : Fin cfg0.N) (i : S8192x128.Idx) :
    i ∈ ((cfg0.win 6).blk t).view.set
      ↔ ∀ a : Fin 2, win0_6.index t a * S128x128.size a ≤ (i a).val ∧ (i a).val < win0_6.index t a * S128x128.size a + S128x128.size a := by
  show i ∈ ((View.whole main_v2_1).slice (win0_6.rect t)).set ↔ _
  rw [View.set_slice_whole, Rect.mem_set_unit]
  exact Iff.rfl

/-- Every index of the result is in the block of the point its row falls in. -/
theorem cover6 (i : S8192x128.Idx) :
    ∃ t : Fin cfg0.N, (cfg0.win 6).flush t = true ∧ i ∈ ((cfg0.win 6).blk t).view.set := by
  have hi0 : (i 0).val < 8192 := (i 0).isLt
  have hi1 : (i 1).val < 128 := (i 1).isLt
  have hN : cfg0.N = 64 := N_0
  refine ⟨⟨(i 0).val / 128, by omega⟩, flush0_6 _, ?_⟩
  obtain ⟨e00, e01, e10, e11, e20, e21, e30, e31, e40, e41, e50, e51, e60, e61, e70, e71, eg⟩ :=
    idx_facts ⟨(i 0).val / 128, by omega⟩
  rw [mem_blk6]
  intro a
  match a with
  | ⟨0, _⟩ =>
    show win0_6.index ⟨(i 0).val / 128, _⟩ (0 : Fin 2) * 128 ≤ (i 0).val
      ∧ (i 0).val < win0_6.index ⟨(i 0).val / 128, _⟩ (0 : Fin 2) * 128 + 128
    rw [e60]
    show (i 0).val / 128 * 128 ≤ (i 0).val ∧ (i 0).val < (i 0).val / 128 * 128 + 128
    omega
  | ⟨1, _⟩ =>
    show win0_6.index ⟨(i 0).val / 128, _⟩ (1 : Fin 2) * 128 ≤ (i 1).val
      ∧ (i 1).val < win0_6.index ⟨(i 0).val / 128, _⟩ (1 : Fin 2) * 128 + 128
    rw [e61]
    omega

/-- THE RESULT after the run: the convolution's channel range, whole. -/
theorem final6 (V : (c : Dev nD) → (b : Ref sig .tc) → Buf (Elt Ideal) ((c : Thread nD τ).loc b)) (c : Dev nD)
    (w : (⟨2, ![8448, 4]⟩ : Shape).Idx → EReal) (b : (⟨1, ![8448]⟩ : Shape).Idx → EReal)
    (hw : ∀ (j : Fin 4) (k : Fin 8448), V c main_v0 (ix2 j k) = w (ix2 k j))
    (hb : ∀ k : Fin 8448, V c main_v1 (ix2 (0 : Fin 1) k) = b (ix1 k)) :
    (dat V c).arrAt 6 cfg0.N = out1 (V c main_arg0) (V c main_arg1) w b :=
  (dat V c).arrAt_eq_of_cover 6 _ (fun t _ => flushed6_eq V c w b hw hb t) cover6

/-! ## The third result: channels [8320, 8448) -/

/-- What grid point `t` writes back to this result is block `t` of the convolution's channel range. -/
theorem flushed7_eq (V : (c : Dev nD) → (b : Ref sig .tc) → Buf (Elt Ideal) ((c : Thread nD τ).loc b)) (c : Dev nD)
    (w : (⟨2, ![8448, 4]⟩ : Shape).Idx → EReal) (b : (⟨1, ![8448]⟩ : Shape).Idx → EReal)
    (hw : ∀ (j : Fin 4) (k : Fin 8448), V c main_v0 (ix2 j k) = w (ix2 k j))
    (hb : ∀ k : Fin 8448, V c main_v1 (ix2 (0 : Fin 1) k) = b (ix1 k)) (t : Fin cfg0.N) :
    (dat V c).flushed 7 t
      = ((cfg0.win 7).blk t).view.read (Elt Ideal) (out2 (V c main_arg0) (V c main_arg1) w b) := by
  have ht : t.val < 64 := t.isLt
  obtain ⟨e00, e01, e10, e11, e20, e21, e30, e31, e40, e41, e50, e51, e60, e61, e70, e71, eg⟩ := idx_facts t
  show (cfg0.win 7).cut (grid0.coords t) ((dat V c).after 7 t) = _
  rw [after_7]
  unfold tileOut7
  rw [View.canon_unit_zero hz]
  funext j
  obtain ⟨r, k, rfl⟩ : ∃ (r : Fin 128) (k : Fin 128), j = ix2 r k := ⟨j 0, j 1, eq_ix2 j⟩
  have hr : r.val < 128 := r.isLt
  have hk : k.val < 128 := k.isLt
  refine (pay4_apply (View.ld (iblk V c 0 t) rTile) (View.ld (iblk V c 1 t) rPrev) (View.ld (iblk V c 2 t) rState)
    (View.ld (iblk V c 3 t) rTap0) (View.ld (iblk V c 3 t) rTap1) (View.ld (iblk V c 3 t) rTap2) (View.ld (iblk V c 3 t) rTap3)
    (View.ld (iblk V c 4 t) rBias) (grid0.coords t) r k).trans ?_
  refine (tile_row (V c main_arg0) (V c main_arg1) w b _ _ _ _ _ _ _ _ (grid0.coords t 0).val t.val eg ht
    (blk0_apply V c t) (blk1_apply V c t) (blk2_apply V c t)
    (fun k' => (tap_row_apply V c t 0 (by omega) inb_S4x8448_S1x8448_0_0 k').trans (hw _ k'))
    (fun k' => (tap_row_apply V c t 1 (by omega) inb_S4x8448_S1x8448_1_0 k').trans (hw _ k'))
    (fun k' => (tap_row_apply V c t 2 (by omega) inb_S4x8448_S1x8448_2_0 k').trans (hw _ k'))
    (fun k' => (tap_row_apply V c t 3 (by omega) inb_S4x8448_S1x8448_3_0 k').trans (hw _ k'))
    (fun k' => (blk4_apply V c t k').trans (hb k'))
    r (⟨8320 + k.val, by omega⟩ : Fin 8448) (by omega)).trans ?_
  show conv (V c main_arg0) (V c main_arg1) w b _ _
    = out2 (V c main_arg0) (V c main_arg1) w b (((cfg0.win 7).blk t).view.emb (ix2 r k))
  unfold out2
  exact congrArg₂ (conv (V c main_arg0) (V c main_arg1) w b)
    (Fin.ext (by show 128 * t.val + r.val = win0_7.index t (0 : Fin 2) * 128 + 1 * r.val; omega))
    (Fin.ext (by show 8320 + k.val = 8320 + (win0_7.index t (1 : Fin 2) * 128 + 1 * k.val); omega))

/-- An index of the result is in point `t`'s block iff each coordinate is in the block's range on its axis. -/
theorem mem_blk7 (t : Fin cfg0.N) (i : S8192x128.Idx) :
    i ∈ ((cfg0.win 7).blk t).view.set
      ↔ ∀ a : Fin 2, win0_7.index t a * S128x128.size a ≤ (i a).val ∧ (i a).val < win0_7.index t a * S128x128.size a + S128x128.size a := by
  show i ∈ ((View.whole main_v2_2).slice (win0_7.rect t)).set ↔ _
  rw [View.set_slice_whole, Rect.mem_set_unit]
  exact Iff.rfl

/-- Every index of the result is in the block of the point its row falls in. -/
theorem cover7 (i : S8192x128.Idx) :
    ∃ t : Fin cfg0.N, (cfg0.win 7).flush t = true ∧ i ∈ ((cfg0.win 7).blk t).view.set := by
  have hi0 : (i 0).val < 8192 := (i 0).isLt
  have hi1 : (i 1).val < 128 := (i 1).isLt
  have hN : cfg0.N = 64 := N_0
  refine ⟨⟨(i 0).val / 128, by omega⟩, flush0_7 _, ?_⟩
  obtain ⟨e00, e01, e10, e11, e20, e21, e30, e31, e40, e41, e50, e51, e60, e61, e70, e71, eg⟩ :=
    idx_facts ⟨(i 0).val / 128, by omega⟩
  rw [mem_blk7]
  intro a
  match a with
  | ⟨0, _⟩ =>
    show win0_7.index ⟨(i 0).val / 128, _⟩ (0 : Fin 2) * 128 ≤ (i 0).val
      ∧ (i 0).val < win0_7.index ⟨(i 0).val / 128, _⟩ (0 : Fin 2) * 128 + 128
    rw [e70]
    show (i 0).val / 128 * 128 ≤ (i 0).val ∧ (i 0).val < (i 0).val / 128 * 128 + 128
    omega
  | ⟨1, _⟩ =>
    show win0_7.index ⟨(i 0).val / 128, _⟩ (1 : Fin 2) * 128 ≤ (i 1).val
      ∧ (i 1).val < win0_7.index ⟨(i 0).val / 128, _⟩ (1 : Fin 2) * 128 + 128
    rw [e71]
    omega

/-- THE RESULT after the run: the convolution's channel range, whole. -/
theorem final7 (V : (c : Dev nD) → (b : Ref sig .tc) → Buf (Elt Ideal) ((c : Thread nD τ).loc b)) (c : Dev nD)
    (w : (⟨2, ![8448, 4]⟩ : Shape).Idx → EReal) (b : (⟨1, ![8448]⟩ : Shape).Idx → EReal)
    (hw : ∀ (j : Fin 4) (k : Fin 8448), V c main_v0 (ix2 j k) = w (ix2 k j))
    (hb : ∀ k : Fin 8448, V c main_v1 (ix2 (0 : Fin 1) k) = b (ix1 k)) :
    (dat V c).arrAt 7 cfg0.N = out2 (V c main_arg0) (V c main_arg1) w b :=
  (dat V c).arrAt_eq_of_cover 7 _ (fun t _ => flushed7_eq V c w b hw hb t) cover7

end Cert.KernelIdeal.Blocks

end
-- ==== Proof.Ideal.Result.lean ====
/-
  The idealized kernel's results as functions of its arguments.

  The region is entered with the tap weights transposed and the bias laid as a row, so the entry read through a tap's row
  at a channel is the weight of that channel and tap, and the bias row at a channel is that channel's bias. With these the
  three arrays the 64 write-backs leave are the three channel ranges of the convolution of the arguments, and the fourth
  result, a slice of the sequence, is its last four rows.
-/
import proofs.«162170_j60765197304309_2_alg».proof.Proof.Ideal.Whole
import proofs.«162170_j60765197304309_2_alg».proof.Proof.Ideal.Blocks
import proofs.«162170_j60765197304309_2_alg».proof.Proof.ConvSpec
import Idealize.ShloMosaic.Lib.Pipeline.Value
import Idealize.ShloMosaic.Lib.ValueLayout

noncomputable section

namespace Cert.KernelIdeal.Result

open Cert.KernelIdeal Cert.KernelIdeal.Gen Cert.KernelIdeal.Tile Cert.KernelIdeal.Whole
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The region finds tap 'j''s weight for channel 'k' at row 'j' of the transposed weights. -/
theorem taps_at (c : Dev nD) (j : Fin 4) (k : Fin 8448) :
    V1 m ρ c main_v0 (ix2 j k) = m ((c : Thread nD τ).loc main_arg2) (ix2 k j) := by
  show (W1 m ρ c main_v0 : S4x8448.Idx → Elt Ideal .f32) (ix2 j k) = _
  rw [W1_v0]
  exact transpose_ix2_apply _ _ j k

/-- The region finds channel 'k''s bias in the one row of the bias laid as a row. -/
theorem bias_at (c : Dev nD) (k : Fin 8448) :
    V1 m ρ c main_v1 (ix2 (0 : Fin 1) k) = m ((c : Thread nD τ).loc main_arg3) (ix1 k) := by
  show (W1 m ρ c main_v1 : S1x8448.Idx → Elt Ideal .f32) (ix2 (0 : Fin 1) k) = _
  rw [W1_v1]
  exact broadcastInDim_apply _ _ _ _ (ix1 k) fun a => match a with
    | ⟨0, h0⟩ => (if_neg (show ¬ (S8448.size ⟨0, h0⟩ = 1) from (by decide : ¬ ((8448 : ℕ) = 1)))).symm ▸ rfl

/-- Rows 8188 to 8191 of the sequence, cut out, are its last four rows. -/
theorem last_rows (x0 : S8192x8448.Idx → EReal) :
    extractStridedSlice S4x8448 ![8188, 0] x0 slices_S8192x8448_S4x8448_8188_0 = Cert.Conv.out3 x0 := by
  funext j
  unfold Cert.Conv.out3
  exact extractStridedSlice_apply _ x0 _ j _ fun a => match a with
    | ⟨0, _⟩ => rfl
    | ⟨1, _⟩ => (Nat.zero_add _).symm

/-- No host line before the region writes the sequence or the state. -/
theorem V1_arg0 (c : Dev nD) : V1 m ρ c main_arg0 = m ((c : Thread nD τ).loc main_arg0) := W1_of_ne m ρ c main_arg0 (by decide) (by decide)
theorem V1_arg1 (c : Dev nD) : V1 m ρ c main_arg1 = m ((c : Thread nD τ).loc main_arg1) := W1_of_ne m ρ c main_arg1 (by decide) (by decide)

/-- THE IDEALIZED KERNEL'S RUN: every weakly fair execution terminates, nothing faulting, the four results the three
    channel ranges of the convolution of the arguments and the last four rows of the sequence, the arguments as launched. -/
theorem run : θ_run defs (onTc (τ := τ) (main (F := Ideal))) ⟨m, fun _ => 0, ρ⟩ (fun r => ∀ c : Dev nD,
      r.2.mem ((c.tc : Thread nD τ).loc main_v2_0) = Cert.Conv.out0 (m ((c : Thread nD τ).loc main_arg0)) (m ((c : Thread nD τ).loc main_arg1))
          (m ((c : Thread nD τ).loc main_arg2)) (m ((c : Thread nD τ).loc main_arg3))
      ∧ r.2.mem ((c.tc : Thread nD τ).loc main_v2_1) = Cert.Conv.out1 (m ((c : Thread nD τ).loc main_arg0)) (m ((c : Thread nD τ).loc main_arg1))
          (m ((c : Thread nD τ).loc main_arg2)) (m ((c : Thread nD τ).loc main_arg3))
      ∧ r.2.mem ((c.tc : Thread nD τ).loc main_v2_2) = Cert.Conv.out2 (m ((c : Thread nD τ).loc main_arg0)) (m ((c : Thread nD τ).loc main_arg1))
          (m ((c : Thread nD τ).loc main_arg2)) (m ((c : Thread nD τ).loc main_arg3))
      ∧ r.2.mem ((c.tc : Thread nD τ).loc main_v3) = Cert.Conv.out3 (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨h5, h6, h7, h3, a0, a1, a2, a3⟩ := h c
    refine ⟨?_, ?_, ?_, h3.trans (last_rows _), a0, a1, a2, a3⟩
    · rw [h5, ← V1_arg0 m ρ c, ← V1_arg1 m ρ c]
      exact Cert.KernelIdeal.Blocks.final5 (V1 m ρ) c _ _ (taps_at m ρ c) (bias_at m ρ c)
    · rw [h6, ← V1_arg0 m ρ c, ← V1_arg1 m ρ c]
      exact Cert.KernelIdeal.Blocks.final6 (V1 m ρ) c _ _ (taps_at m ρ c) (bias_at m ρ c)
    · rw [h7, ← V1_arg0 m ρ c, ← V1_arg1 m ρ c]
      exact Cert.KernelIdeal.Blocks.final7 (V1 m ρ) c _ _ (taps_at m ρ c) (bias_at m ρ c))
    (run_values m ρ)

end Cert.KernelIdeal.Result

end
-- ==== Proof.ConvRef.lean ====
import proofs.«162170_j60765197304309_2_alg».proof.Proof.ConvSpec
import proofs.«162170_j60765197304309_2_alg».proof.Proof.Gen.ReferenceIdeal.Read

/-!
# The reference program computes the convolution

The reference joins the state and the input along the rows, takes the four windows of 8192 rows at row offsets
0, 1, 2, 3, multiplies window `j` by column `j` of the weights broadcast over the rows, and adds the four products
to the broadcast bias from the left. Read at one index: the joined array at row `n` is `padded … n`; window `j` at
row `i` is the joined array at row `i + j`; the broadcast weight column at `(i, k)` is `weight k j` and the broadcast
bias is `bias k`. So the sum at `(i, k)` is `conv … i k` term for term, and the three channel slices and the slice of
the joined array's last four rows are `out0` … `out3`.
-/

noncomputable section

namespace Cert.Conv

open Cert.ReferenceIdeal Cert.ReferenceIdeal.Gen Cert.ReferenceIdeal.Read
open Idealize.ShloMosaic Idealize.ShloMosaic.ValueIdx

/-- The joined array at row `n`: the state's row for `n < 4`, the input's row `n - 4` after. -/
theorem v0_apply (x0 : (⟨S8192x8448, .f32⟩ : BufTy).Contents (Elt Ideal)) (x1 : (⟨S4x8448, .f32⟩ : BufTy).Contents (Elt Ideal)) (n : Nat) (hn : n < 8196) (k : Fin 8448) :
    val_main_v0 (F := Ideal) x0 x1 (ix2 (⟨n, hn⟩ : Fin 8196) k) = padded x0 x1 n hn k := by
  unfold val_main_v0 padded
  by_cases h : n < 4
  · rw [dif_pos h]
    exact concatenate_pair_apply_left (t := S8196x8448) (s₁ := S4x8448) (s₂ := S8192x8448) (0 : Fin 2) x1 x0 _
      (ix2 (⟨n, hn⟩ : Fin 8196) k) rfl (ix2 (⟨n, h⟩ : Fin 4) k)
      (fun b => match b with | ⟨0, _⟩ => rfl | ⟨1, _⟩ => rfl)
  · rw [dif_neg h]
    exact concatenate_pair_apply_right (t := S8196x8448) (s₁ := S4x8448) (s₂ := S8192x8448) (0 : Fin 2) x1 x0 _
      (ix2 (⟨n, hn⟩ : Fin 8196) k) rfl rfl (ix2 (⟨n - 4, by omega⟩ : Fin 8192) k)
      (fun b hb => match b, hb with | ⟨0, _⟩, hb => absurd rfl hb | ⟨1, _⟩, _ => rfl)
      (by show n - 4 + 4 = n; omega)

/-- The padded array's rows `0` … `0 + 8191`, read at row `i`, are its row `i + 0`. -/
theorem tap0_apply (x0 : (⟨S8192x8448, .f32⟩ : BufTy).Contents (Elt Ideal)) (x1 : (⟨S4x8448, .f32⟩ : BufTy).Contents (Elt Ideal)) (i : Fin 8192) (k : Fin 8448) :
    val_main_v1 (F := Ideal) x0 x1 (ix2 i k) = padded x0 x1 (i.val + 0) (by have := i.isLt; omega) k := by
  have hi : i.val < 8192 := i.isLt
  have e : idx_main_v1 (ix2 i k) = ix2 (⟨i.val, by omega⟩ : Fin 8196) k :=
    funext fun a => match a with | ⟨0, _⟩ => rfl | ⟨1, _⟩ => rfl
  rw [val_main_v1_apply, e, v0_apply]
  exact padded_congr x0 x1 (by omega) _ _ k

/-- The padded array's rows `1` … `1 + 8191`, read at row `i`, are its row `i + 1`. -/
theorem tap1_apply (x0 : (⟨S8192x8448, .f32⟩ : BufTy).Contents (Elt Ideal)) (x1 : (⟨S4x8448, .f32⟩ : BufTy).Contents (Elt Ideal)) (i : Fin 8192) (k : Fin 8448) :
    val_main_v10 (F := Ideal) x0 x1 (ix2 i k) = padded x0 x1 (i.val + 1) (by have := i.isLt; omega) k := by
  have hi : i.val < 8192 := i.isLt
  have e : idx_main_v10 (ix2 i k) = ix2 (⟨1 + i.val, by omega⟩ : Fin 8196) k :=
    funext fun a => match a with | ⟨0, _⟩ => rfl | ⟨1, _⟩ => rfl
  rw [val_main_v10_apply, e, v0_apply]
  exact padded_congr x0 x1 (by omega) _ _ k

/-- The padded array's rows `2` … `2 + 8191`, read at row `i`, are its row `i + 2`. -/
theorem tap2_apply (x0 : (⟨S8192x8448, .f32⟩ : BufTy).Contents (Elt Ideal)) (x1 : (⟨S4x8448, .f32⟩ : BufTy).Contents (Elt Ideal)) (i : Fin 8192) (k : Fin 8448) :
    val_main_v17 (F := Ideal) x0 x1 (ix2 i k) = padded x0 x1 (i.val + 2) (by have := i.isLt; omega) k := by
  have hi : i.val < 8192 := i.isLt
  have e : idx_main_v17 (ix2 i k) = ix2 (⟨2 + i.val, by omega⟩ : Fin 8196) k :=
    funext fun a => match a with | ⟨0, _⟩ => rfl | ⟨1, _⟩ => rfl
  rw [val_main_v17_apply, e, v0_apply]
  exact padded_congr x0 x1 (by omega) _ _ k

/-- The padded array's rows `3` … `3 + 8191`, read at row `i`, are its row `i + 3`. -/
theorem tap3_apply (x0 : (⟨S8192x8448, .f32⟩ : BufTy).Contents (Elt Ideal)) (x1 : (⟨S4x8448, .f32⟩ : BufTy).Contents (Elt Ideal)) (i : Fin 8192) (k : Fin 8448) :
    val_main_v24 (F := Ideal) x0 x1 (ix2 i k) = padded x0 x1 (i.val + 3) (by have := i.isLt; omega) k := by
  have hi : i.val < 8192 := i.isLt
  have e : idx_main_v24 (ix2 i k) = ix2 (⟨3 + i.val, by omega⟩ : Fin 8196) k :=
    funext fun a => match a with | ⟨0, _⟩ => rfl | ⟨1, _⟩ => rfl
  rw [val_main_v24_apply, e, v0_apply]
  exact padded_congr x0 x1 (by omega) _ _ k

/-- Column `0` of the weights broadcast over the rows: at `(i, k)` it is the weight of channel `k`, tap `0`. -/
theorem wt0_apply (x2 : (⟨S8448x4, .f32⟩ : BufTy).Contents (Elt Ideal)) (i : Fin 8192) (k : Fin 8448) :
    val_main_v5 (F := Ideal) x2 (ix2 i k) = x2 (ix2 k (⟨0, by omega⟩ : Fin 4)) := by
  rw [val_main_v5_apply, val_main_v4_apply, val_main_v3_apply, val_main_v2_apply]
  exact congrArg x2 (funext fun a => Fin.ext (by
    match a with
    | ⟨0, _⟩ => show k.val / 1 = k.val; exact Nat.div_one _
    | ⟨1, _⟩ => rfl))

/-- Column `1` of the weights broadcast over the rows: at `(i, k)` it is the weight of channel `k`, tap `1`. -/
theorem wt1_apply (x2 : (⟨S8448x4, .f32⟩ : BufTy).Contents (Elt Ideal)) (i : Fin 8192) (k : Fin 8448) :
    val_main_v14 (F := Ideal) x2 (ix2 i k) = x2 (ix2 k (⟨1, by omega⟩ : Fin 4)) := by
  rw [val_main_v14_apply, val_main_v13_apply, val_main_v12_apply, val_main_v11_apply]
  exact congrArg x2 (funext fun a => Fin.ext (by
    match a with
    | ⟨0, _⟩ => show k.val / 1 = k.val; exact Nat.div_one _
    | ⟨1, _⟩ => rfl))

/-- Column `2` of the weights broadcast over the rows: at `(i, k)` it is the weight of channel `k`, tap `2`. -/
theorem wt2_apply (x2 : (⟨S8448x4, .f32⟩ : BufTy).Contents (Elt Ideal)) (i : Fin 8192) (k : Fin 8448) :
    val_main_v21 (F := Ideal) x2 (ix2 i k) = x2 (ix2 k (⟨2, by omega⟩ : Fin 4)) := by
  rw [val_main_v21_apply, val_main_v20_apply, val_main_v19_apply, val_main_v18_apply]
  exact congrArg x2 (funext fun a => Fin.ext (by
    match a with
    | ⟨0, _⟩ => show k.val / 1 = k.val; exact Nat.div_one _
    | ⟨1, _⟩ => rfl))

/-- Column `3` of the weights broadcast over the rows: at `(i, k)` it is the weight of channel `k`, tap `3`. -/
theorem wt3_apply (x2 : (⟨S8448x4, .f32⟩ : BufTy).Contents (Elt Ideal)) (i : Fin 8192) (k : Fin 8448) :
    val_main_v28 (F := Ideal) x2 (ix2 i k) = x2 (ix2 k (⟨3, by omega⟩ : Fin 4)) := by
  rw [val_main_v28_apply, val_main_v27_apply, val_main_v26_apply, val_main_v25_apply]
  exact congrArg x2 (funext fun a => Fin.ext (by
    match a with
    | ⟨0, _⟩ => show k.val / 1 = k.val; exact Nat.div_one _
    | ⟨1, _⟩ => rfl))

/-- The bias broadcast over the rows: at `(i, k)` it is the bias of channel `k`. -/
theorem bias_apply (x3 : (⟨S8448, .f32⟩ : BufTy).Contents (Elt Ideal)) (i : Fin 8192) (k : Fin 8448) :
    val_main_v8 (F := Ideal) x3 (ix2 i k) = x3 (ix1 k) := by
  rw [val_main_v8_apply, val_main_v7_apply]
  exact congrArg x3 (funext fun a => match a with | ⟨0, _⟩ => rfl)

/-- The reference's sum before the channel split, at row `i` and channel `k`, is the convolution there. -/
theorem v30_apply (x0 : (⟨S8192x8448, .f32⟩ : BufTy).Contents (Elt Ideal)) (x1 : (⟨S4x8448, .f32⟩ : BufTy).Contents (Elt Ideal)) (x2 : (⟨S8448x4, .f32⟩ : BufTy).Contents (Elt Ideal)) (x3 : (⟨S8448, .f32⟩ : BufTy).Contents (Elt Ideal)) (i : Fin 8192) (k : Fin 8448) :
    val_main_v30 (F := Ideal) x0 x1 x2 x3 (ix2 i k) = conv x0 x1 x2 x3 i k := by
  rw [val_main_v30_apply, val_main_v23_apply, val_main_v16_apply, val_main_v9_apply, val_main_v29_apply,
    val_main_v22_apply, val_main_v15_apply, val_main_v6_apply, bias_apply, tap0_apply, tap1_apply, tap2_apply,
    tap3_apply, wt0_apply, wt1_apply, wt2_apply, wt3_apply]
  rfl

/-- The reference's first result is channels [0, 8192) of the convolution. -/
theorem ref_out0 (x0 : (⟨S8192x8448, .f32⟩ : BufTy).Contents (Elt Ideal)) (x1 : (⟨S4x8448, .f32⟩ : BufTy).Contents (Elt Ideal)) (x2 : (⟨S8448x4, .f32⟩ : BufTy).Contents (Elt Ideal)) (x3 : (⟨S8448, .f32⟩ : BufTy).Contents (Elt Ideal)) :
    val_main_v32 (F := Ideal) x0 x1 x2 x3 = out0 x0 x1 x2 x3 := by
  funext j
  have h1 := idx2_lt1 j
  have e : idx_main_v32 j = ix2 (⟨(j 0).val, idx2_lt0 j⟩ : Fin 8192) (⟨(j 1).val, by omega⟩ : Fin 8448) :=
    funext fun a => match a with | ⟨0, _⟩ => rfl | ⟨1, _⟩ => rfl
  rw [val_main_v32_apply, e]
  exact v30_apply x0 x1 x2 x3 _ _

/-- The reference's second result is channels [8192, 8320) of the convolution. -/
theorem ref_out1 (x0 : (⟨S8192x8448, .f32⟩ : BufTy).Contents (Elt Ideal)) (x1 : (⟨S4x8448, .f32⟩ : BufTy).Contents (Elt Ideal)) (x2 : (⟨S8448x4, .f32⟩ : BufTy).Contents (Elt Ideal)) (x3 : (⟨S8448, .f32⟩ : BufTy).Contents (Elt Ideal)) :
    val_main_v33 (F := Ideal) x0 x1 x2 x3 = out1 x0 x1 x2 x3 := by
  funext j
  have h1 := idx2_lt1 j
  have e : idx_main_v33 j = ix2 (⟨(j 0).val, idx2_lt0 j⟩ : Fin 8192) (⟨8192 + (j 1).val, by omega⟩ : Fin 8448) :=
    funext fun a => match a with | ⟨0, _⟩ => rfl | ⟨1, _⟩ => rfl
  rw [val_main_v33_apply, e]
  exact v30_apply x0 x1 x2 x3 _ _

/-- The reference's third result is channels [8320, 8448) of the convolution. -/
theorem ref_out2 (x0 : (⟨S8192x8448, .f32⟩ : BufTy).Contents (Elt Ideal)) (x1 : (⟨S4x8448, .f32⟩ : BufTy).Contents (Elt Ideal)) (x2 : (⟨S8448x4, .f32⟩ : BufTy).Contents (Elt Ideal)) (x3 : (⟨S8448, .f32⟩ : BufTy).Contents (Elt Ideal)) :
    val_main_v34 (F := Ideal) x0 x1 x2 x3 = out2 x0 x1 x2 x3 := by
  funext j
  have h1 := idx2_lt1 j
  have e : idx_main_v34 j = ix2 (⟨(j 0).val, idx2_lt0 j⟩ : Fin 8192) (⟨8320 + (j 1).val, by omega⟩ : Fin 8448) :=
    funext fun a => match a with | ⟨0, _⟩ => rfl | ⟨1, _⟩ => rfl
  rw [val_main_v34_apply, e]
  exact v30_apply x0 x1 x2 x3 _ _

/-- The reference's fourth result, the last four rows of the joined array, is the last four rows of the input. -/
theorem ref_out3 (x0 : (⟨S8192x8448, .f32⟩ : BufTy).Contents (Elt Ideal)) (x1 : (⟨S4x8448, .f32⟩ : BufTy).Contents (Elt Ideal)) :
    val_main_v31 (F := Ideal) x0 x1 = out3 x0 := by
  funext j
  have h0 := idx2_lt0 j
  have e : idx_main_v31 j = ix2 (⟨8192 + (j 0).val, by omega⟩ : Fin 8196) (⟨(j 1).val, idx2_lt1 j⟩ : Fin 8448) :=
    funext fun a => match a with | ⟨0, _⟩ => rfl | ⟨1, _⟩ => rfl
  rw [val_main_v31_apply, e, v0_apply]
  unfold padded out3
  rw [dif_neg (by omega)]
  exact congrArg x0 (funext fun a => Fin.ext (by
    match a with
    | ⟨0, _⟩ => show 8192 + (j 0).val - 4 = 8188 + (j 0).val; omega
    | ⟨1, _⟩ => rfl))

/-- The same, with the left-hand side spelled as the composed term of the arguments. -/
theorem run_out0 (x0 : (⟨S8192x8448, .f32⟩ : BufTy).Contents (Elt Ideal)) (x1 : (⟨S4x8448, .f32⟩ : BufTy).Contents (Elt Ideal)) (x2 : (⟨S8448x4, .f32⟩ : BufTy).Contents (Elt Ideal)) (x3 : (⟨S8448, .f32⟩ : BufTy).Contents (Elt Ideal)) :
    extractStridedSlice S8192x8192 ![0, 0] (addf (F := Ideal) (φ := .f32) (addf (F := Ideal) (φ := .f32) (addf (F := Ideal) (φ := .f32) (addf (F := Ideal) (φ := .f32) (broadcastInDim S8192x8448 ![0, 1] bcast_S1x8448_S8192x8448_0_1 (broadcastInDim S1x8448 ![1] bcast_S8448_S1x8448_1 (x3))) (mulf (F := Ideal) (φ := .f32) (extractStridedSlice S8192x8448 ![0, 0] (concatenate S8196x8448 0 [⟨S4x8448, (x1)⟩, ⟨S8192x8448, (x0)⟩] concatenates_S4x8448_S8192x8448_S8196x8448_d0) slices_S8196x8448_S8192x8448_0_0) (broadcastInDim S8192x8448 ![0, 1] bcast_S1x8448_S8192x8448_0_1 (broadcastInDim S1x8448 ![1] bcast_S8448_S1x8448_1 (shapeCast _ (extractStridedSlice S8448x1 ![0, 0] (x2) slices_S8448x4_S8448x1_0_0) shapeCasts_S8448x1_S8448))))) (mulf (F := Ideal) (φ := .f32) (extractStridedSlice S8192x8448 ![1, 0] (concatenate S8196x8448 0 [⟨S4x8448, (x1)⟩, ⟨S8192x8448, (x0)⟩] concatenates_S4x8448_S8192x8448_S8196x8448_d0) slices_S8196x8448_S8192x8448_1_0) (broadcastInDim S8192x8448 ![0, 1] bcast_S1x8448_S8192x8448_0_1 (broadcastInDim S1x8448 ![1] bcast_S8448_S1x8448_1 (shapeCast _ (extractStridedSlice S8448x1 ![0, 1] (x2) slices_S8448x4_S8448x1_0_1) shapeCasts_S8448x1_S8448))))) (mulf (F := Ideal) (φ := .f32) (extractStridedSlice S8192x8448 ![2, 0] (concatenate S8196x8448 0 [⟨S4x8448, (x1)⟩, ⟨S8192x8448, (x0)⟩] concatenates_S4x8448_S8192x8448_S8196x8448_d0) slices_S8196x8448_S8192x8448_2_0) (broadcastInDim S8192x8448 ![0, 1] bcast_S1x8448_S8192x8448_0_1 (broadcastInDim S1x8448 ![1] bcast_S8448_S1x8448_1 (shapeCast _ (extractStridedSlice S8448x1 ![0, 2] (x2) slices_S8448x4_S8448x1_0_2) shapeCasts_S8448x1_S8448))))) (mulf (F := Ideal) (φ := .f32) (extractStridedSlice S8192x8448 ![3, 0] (concatenate S8196x8448 0 [⟨S4x8448, (x1)⟩, ⟨S8192x8448, (x0)⟩] concatenates_S4x8448_S8192x8448_S8196x8448_d0) slices_S8196x8448_S8192x8448_3_0) (broadcastInDim S8192x8448 ![0, 1] bcast_S1x8448_S8192x8448_0_1 (broadcastInDim S1x8448 ![1] bcast_S8448_S1x8448_1 (shapeCast _ (extractStridedSlice S8448x1 ![0, 3] (x2) slices_S8448x4_S8448x1_0_3) shapeCasts_S8448x1_S8448))))) slices_S8192x8448_S8192x8192_0_0
      = out0 x0 x1 x2 x3 :=
  (val_main_v32_eq (F := Ideal) x0 x1 x2 x3).trans (ref_out0 x0 x1 x2 x3)

/-- The same, with the left-hand side spelled as the composed term of the arguments. -/
theorem run_out1 (x0 : (⟨S8192x8448, .f32⟩ : BufTy).Contents (Elt Ideal)) (x1 : (⟨S4x8448, .f32⟩ : BufTy).Contents (Elt Ideal)) (x2 : (⟨S8448x4, .f32⟩ : BufTy).Contents (Elt Ideal)) (x3 : (⟨S8448, .f32⟩ : BufTy).Contents (Elt Ideal)) :
    extractStridedSlice S8192x128 ![0, 8192] (addf (F := Ideal) (φ := .f32) (addf (F := Ideal) (φ := .f32) (addf (F := Ideal) (φ := .f32) (addf (F := Ideal) (φ := .f32) (broadcastInDim S8192x8448 ![0, 1] bcast_S1x8448_S8192x8448_0_1 (broadcastInDim S1x8448 ![1] bcast_S8448_S1x8448_1 (x3))) (mulf (F := Ideal) (φ := .f32) (extractStridedSlice S8192x8448 ![0, 0] (concatenate S8196x8448 0 [⟨S4x8448, (x1)⟩, ⟨S8192x8448, (x0)⟩] concatenates_S4x8448_S8192x8448_S8196x8448_d0) slices_S8196x8448_S8192x8448_0_0) (broadcastInDim S8192x8448 ![0, 1] bcast_S1x8448_S8192x8448_0_1 (broadcastInDim S1x8448 ![1] bcast_S8448_S1x8448_1 (shapeCast _ (extractStridedSlice S8448x1 ![0, 0] (x2) slices_S8448x4_S8448x1_0_0) shapeCasts_S8448x1_S8448))))) (mulf (F := Ideal) (φ := .f32) (extractStridedSlice S8192x8448 ![1, 0] (concatenate S8196x8448 0 [⟨S4x8448, (x1)⟩, ⟨S8192x8448, (x0)⟩] concatenates_S4x8448_S8192x8448_S8196x8448_d0) slices_S8196x8448_S8192x8448_1_0) (broadcastInDim S8192x8448 ![0, 1] bcast_S1x8448_S8192x8448_0_1 (broadcastInDim S1x8448 ![1] bcast_S8448_S1x8448_1 (shapeCast _ (extractStridedSlice S8448x1 ![0, 1] (x2) slices_S8448x4_S8448x1_0_1) shapeCasts_S8448x1_S8448))))) (mulf (F := Ideal) (φ := .f32) (extractStridedSlice S8192x8448 ![2, 0] (concatenate S8196x8448 0 [⟨S4x8448, (x1)⟩, ⟨S8192x8448, (x0)⟩] concatenates_S4x8448_S8192x8448_S8196x8448_d0) slices_S8196x8448_S8192x8448_2_0) (broadcastInDim S8192x8448 ![0, 1] bcast_S1x8448_S8192x8448_0_1 (broadcastInDim S1x8448 ![1] bcast_S8448_S1x8448_1 (shapeCast _ (extractStridedSlice S8448x1 ![0, 2] (x2) slices_S8448x4_S8448x1_0_2) shapeCasts_S8448x1_S8448))))) (mulf (F := Ideal) (φ := .f32) (extractStridedSlice S8192x8448 ![3, 0] (concatenate S8196x8448 0 [⟨S4x8448, (x1)⟩, ⟨S8192x8448, (x0)⟩] concatenates_S4x8448_S8192x8448_S8196x8448_d0) slices_S8196x8448_S8192x8448_3_0) (broadcastInDim S8192x8448 ![0, 1] bcast_S1x8448_S8192x8448_0_1 (broadcastInDim S1x8448 ![1] bcast_S8448_S1x8448_1 (shapeCast _ (extractStridedSlice S8448x1 ![0, 3] (x2) slices_S8448x4_S8448x1_0_3) shapeCasts_S8448x1_S8448))))) slices_S8192x8448_S8192x128_0_8192
      = out1 x0 x1 x2 x3 :=
  (val_main_v33_eq (F := Ideal) x0 x1 x2 x3).trans (ref_out1 x0 x1 x2 x3)

/-- The same, with the left-hand side spelled as the composed term of the arguments. -/
theorem run_out2 (x0 : (⟨S8192x8448, .f32⟩ : BufTy).Contents (Elt Ideal)) (x1 : (⟨S4x8448, .f32⟩ : BufTy).Contents (Elt Ideal)) (x2 : (⟨S8448x4, .f32⟩ : BufTy).Contents (Elt Ideal)) (x3 : (⟨S8448, .f32⟩ : BufTy).Contents (Elt Ideal)) :
    extractStridedSlice S8192x128 ![0, 8320] (addf (F := Ideal) (φ := .f32) (addf (F := Ideal) (φ := .f32) (addf (F := Ideal) (φ := .f32) (addf (F := Ideal) (φ := .f32) (broadcastInDim S8192x8448 ![0, 1] bcast_S1x8448_S8192x8448_0_1 (broadcastInDim S1x8448 ![1] bcast_S8448_S1x8448_1 (x3))) (mulf (F := Ideal) (φ := .f32) (extractStridedSlice S8192x8448 ![0, 0] (concatenate S8196x8448 0 [⟨S4x8448, (x1)⟩, ⟨S8192x8448, (x0)⟩] concatenates_S4x8448_S8192x8448_S8196x8448_d0) slices_S8196x8448_S8192x8448_0_0) (broadcastInDim S8192x8448 ![0, 1] bcast_S1x8448_S8192x8448_0_1 (broadcastInDim S1x8448 ![1] bcast_S8448_S1x8448_1 (shapeCast _ (extractStridedSlice S8448x1 ![0, 0] (x2) slices_S8448x4_S8448x1_0_0) shapeCasts_S8448x1_S8448))))) (mulf (F := Ideal) (φ := .f32) (extractStridedSlice S8192x8448 ![1, 0] (concatenate S8196x8448 0 [⟨S4x8448, (x1)⟩, ⟨S8192x8448, (x0)⟩] concatenates_S4x8448_S8192x8448_S8196x8448_d0) slices_S8196x8448_S8192x8448_1_0) (broadcastInDim S8192x8448 ![0, 1] bcast_S1x8448_S8192x8448_0_1 (broadcastInDim S1x8448 ![1] bcast_S8448_S1x8448_1 (shapeCast _ (extractStridedSlice S8448x1 ![0, 1] (x2) slices_S8448x4_S8448x1_0_1) shapeCasts_S8448x1_S8448))))) (mulf (F := Ideal) (φ := .f32) (extractStridedSlice S8192x8448 ![2, 0] (concatenate S8196x8448 0 [⟨S4x8448, (x1)⟩, ⟨S8192x8448, (x0)⟩] concatenates_S4x8448_S8192x8448_S8196x8448_d0) slices_S8196x8448_S8192x8448_2_0) (broadcastInDim S8192x8448 ![0, 1] bcast_S1x8448_S8192x8448_0_1 (broadcastInDim S1x8448 ![1] bcast_S8448_S1x8448_1 (shapeCast _ (extractStridedSlice S8448x1 ![0, 2] (x2) slices_S8448x4_S8448x1_0_2) shapeCasts_S8448x1_S8448))))) (mulf (F := Ideal) (φ := .f32) (extractStridedSlice S8192x8448 ![3, 0] (concatenate S8196x8448 0 [⟨S4x8448, (x1)⟩, ⟨S8192x8448, (x0)⟩] concatenates_S4x8448_S8192x8448_S8196x8448_d0) slices_S8196x8448_S8192x8448_3_0) (broadcastInDim S8192x8448 ![0, 1] bcast_S1x8448_S8192x8448_0_1 (broadcastInDim S1x8448 ![1] bcast_S8448_S1x8448_1 (shapeCast _ (extractStridedSlice S8448x1 ![0, 3] (x2) slices_S8448x4_S8448x1_0_3) shapeCasts_S8448x1_S8448))))) slices_S8192x8448_S8192x128_0_8320
      = out2 x0 x1 x2 x3 :=
  (val_main_v34_eq (F := Ideal) x0 x1 x2 x3).trans (ref_out2 x0 x1 x2 x3)

/-- The same, with the left-hand side spelled as the composed term of the arguments. -/
theorem run_out3 (x0 : (⟨S8192x8448, .f32⟩ : BufTy).Contents (Elt Ideal)) (x1 : (⟨S4x8448, .f32⟩ : BufTy).Contents (Elt Ideal)) :
    extractStridedSlice S4x8448 ![8192, 0] (concatenate S8196x8448 0 [⟨S4x8448, (x1)⟩, ⟨S8192x8448, (x0)⟩] concatenates_S4x8448_S8192x8448_S8196x8448_d0) slices_S8196x8448_S4x8448_8192_0
      = out3 x0 :=
  (val_main_v31_eq (F := Ideal) x0 x1).trans (ref_out3 x0 x1)

end Cert.Conv

end
-- ==== Proof.lean ====
/-
  A causal depthwise convolution with four taps over 8192 rows and 8448 channels, computed tile by tile, against the
  same convolution written over the whole arrays.

  The kernel cuts the sequence into 64 tiles of 128 rows. For a tile it forms the bias plus the four taps' products,
  each tap the tile rotated down by the tap's lag; the first eight rows, where the rotation wraps, it recomputes from
  the four rows that precede the tile — the carried state for the first tile, else the last four rows before it, which
  it reads through a second window on the sequence — followed by the tile's own first rows. The reference prepends the
  state to the sequence and adds the four shifted copies times the weights to the bias. Both accumulate from the bias,
  left to right, tap times weight, so at every row and channel the two programs evaluate one and the same expression
  of the arguments over the extended reals: no law of arithmetic is used and no finiteness.

  Each frame: the program terminates on every weakly fair execution, faults nowhere, and leaves its arguments as
  launched. For the two kernels this is the run of the host lines, the region over the 64 tiles and the host line after
  it, with the sequence's array shared between its two windows; for the reference it is its run with the results
  dropped. The idealization rewrote nothing, so it preserves the kernel trivially.
-/
import proofs.«162170_j60765197304309_2_alg».proof.Defs
import proofs.«162170_j60765197304309_2_alg».proof.Proof.Gen.Kernel
import proofs.«162170_j60765197304309_2_alg».proof.Proof.Gen.KernelIdeal
import proofs.«162170_j60765197304309_2_alg».proof.Proof.Gen.ReferenceIdeal
import proofs.«162170_j60765197304309_2_alg».proof.Proof.Gen.ReferenceIdeal.Run
import proofs.«162170_j60765197304309_2_alg».proof.Proof.Gen.ReferenceIdeal.Read
import proofs.«162170_j60765197304309_2_alg».proof.Proof.Gen.Pre_finite_inputs
import proofs.«162170_j60765197304309_2_alg».proof.Proof.Bits.Whole
import proofs.«162170_j60765197304309_2_alg».proof.Proof.Ideal.Result
import proofs.«162170_j60765197304309_2_alg».proof.Proof.ConvRef
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Whole.frame m ρ

/-- So does its idealization. -/
theorem frame_kernel_ideal : Cert.frame_KernelIdeal := fun m ρ _ => Cert.KernelIdeal.Whole.frame m ρ

/-- The reference's run, its four results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- From memories that agree on the arguments, both idealized programs end with the three channel ranges of the
    convolution of the arguments and the last four rows of the sequence. -/
theorem algebraic : Cert.algebraic_KernelIdeal_ReferenceIdeal := by
  intro m ρ m' ρ' _ hagree
  refine ⟨fun c => Cert.Conv.out0 (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      fun c => Cert.Conv.out1 (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      fun c => Cert.Conv.out2 (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      fun c => Cert.Conv.out3 (m ((c.tc : Thread Cert.KernelIdeal.nD Cert.KernelIdeal.τ).loc Cert.KernelIdeal.main_arg0)),
      Cert.KernelIdeal.Result.run m ρ, ?_⟩
  refine (θ_run Cert.ReferenceIdeal.defs _ _).mono (fun _ h c => ?_) (Cert.ReferenceIdeal.Value.run (F := Ideal) m' ρ')
  obtain ⟨r0, r1, r2, r3, a0, a1, a2, a3⟩ := h c
  obtain ⟨e0, e1, e2, e3⟩ := hagree c
  refine ⟨?_, ?_, ?_, ?_, a0, a1, a2, a3⟩
  · exact r0.trans ((Cert.Conv.run_out0 _ _ _ _).trans (by rw [e0, e1, e2, e3]))
  · exact r1.trans ((Cert.Conv.run_out1 _ _ _ _).trans (by rw [e0, e1, e2, e3]))
  · exact r2.trans ((Cert.Conv.run_out2 _ _ _ _).trans (by rw [e0, e1, e2, e3]))
  · exact r3.trans ((Cert.Conv.run_out3 _ _).trans (by rw [e0]))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
